-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x128 : Shape := ⟨2, ![4096, 128]⟩
abbrev S4096x128x32 : Shape := ⟨3, ![4096, 128, 32]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S2x2048x4096 .f32) (main_arg1 : FVec F S4096x128 .f32) (main_arg2 : IVec S4096x128x32 32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S2x2048x4096 : Shape := ⟨3, ![2, 2048, 4096]⟩
abbrev S4096x128 : Shape := ⟨2, ![4096, 128]⟩
abbrev S4096x128x32 : Shape := ⟨3, ![4096, 128, 32]⟩
abbrev S64x128 : Shape := ⟨2, ![64, 128]⟩
abbrev S64x128x32 : Shape := ⟨3, ![64, 128, 32]⟩
abbrev S64x128x1 : Shape := ⟨3, ![64, 128, 1]⟩
abbrev S4096x4096 : Shape := ⟨2, ![4096, 4096]⟩
abbrev S1024x1024 : Shape := ⟨2, ![1024, 1024]⟩

abbrev nBuf : Space → Nat
  | .hbm => 8
  | .vmem => 13
  | .smem => 0
  | _ => 0

abbrev bufTy : (tb : Table) → Fin (tcTables nBuf tb) → BufTy
  | .hbm, ⟨0, _⟩ => ⟨S2x2048x4096, .f32⟩
  | .hbm, ⟨1, _⟩ => ⟨S4096x128, .f32⟩
  | .hbm, ⟨2, _⟩ => ⟨S4096x128x32, .i32⟩
  | .hbm, ⟨3, _⟩ => ⟨S4096x128x32, .bf16⟩
  | .hbm, ⟨4, _⟩ => ⟨S4096x4096, .bf16⟩
  | .hbm, ⟨5, _⟩ => ⟨S4096x4096, .f32⟩
  | .hbm, ⟨6, _⟩ => ⟨S4096x4096, .f32⟩
  | .hbm, ⟨7, _⟩ => ⟨S2x2048x4096, .f32⟩
  | .local _ .vmem, ⟨0, _⟩ => ⟨S64x128, .f32⟩
  | .local _ .vmem, ⟨1, _⟩ => ⟨S64x128, .f32⟩
  | .local _ .vmem, ⟨2, _⟩ => ⟨S64x128x32, .i32⟩
  | .local _ .vmem, ⟨3, _⟩ => ⟨S64x128x32, .i32⟩
  | .local _ .vmem, ⟨4, _⟩ => ⟨S64x128x32, .bf16⟩
  | .local _ .vmem, ⟨5, _⟩ => ⟨S64x128x32, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S64x128x32_S64x128x32_0_0_0 : ∀ a, (![0, 0, 0] : Fin 3 → Nat) a + S64x128x32.size a ≤ S64x128x32.size a
  h_S64x128x32 : 0 < S64x128x32.numel
  inb_S64x128_S64x128_0_0 : ∀ a, (![0, 0] : Fin 2 → Nat) a + S64x128.size a ≤ S64x128.size a
  h_S64x128 : 0 < S64x128.numel
  shapeCasts_S64x128_S64x128x1 : S64x128.ShapeCasts S64x128x1
  broadcasts_S64x128x1_S64x128x32 : S64x128x1.Broadcasts S64x128x32
  bitsLt_bf16_f32 : FTy.bits .bf16 < FTy.bits .f32
  packedbf16_S64x128x32_S64x128x32_0_0_0 : (Rect.unit (s := S64x128x32) ![0, 0, 0] S64x128x32.size inb_S64x128x32_S64x128x32_0_0_0).PackedRows (EltTy.packing .bf16)
  shapeCasts_S4096x128x32_S4096x4096 : S4096x128x32.ShapeCasts S4096x4096
  shapeCasts_S2x2048x4096_S4096x4096 : S2x2048x4096.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x4096_S2x2048x4096 : S4096x4096.ShapeCasts S2x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S4096x128.size a
  hwx0_0 : ∀ i : grid0.Coords, EltTy.bits .f32 = 32 ∨ (Rect.block (s := S4096x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x32.size a ≤ S4096x128x32.size a
  hwx0_1 : ∀ i : grid0.Coords, EltTy.bits .i32 = 32 ∨ (Rect.block (s := S4096x128x32) S64x128x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128x32.size a ≤ S4096x128x32.size a
  hwx0_2 : ∀ i : grid0.Coords, EltTy.bits .bf16 = 32 ∨ (Rect.block (s := S4096x128x32) S64x128x32.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x128 : Shape := ⟨2, ![4096, 128]⟩
abbrev S4096x128x32 : Shape := ⟨3, ![4096, 128, 32]⟩
abbrev S_ : Shape := ⟨0, ![]⟩
abbrev S4096x128x1 : Shape := ⟨3, ![4096, 128, 1]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x128, .f32⟩
  | .hbm, ⟨2, _⟩ => ⟨S4096x128x32, .i32⟩
  | .hbm, ⟨3, _⟩ => ⟨S4096x128x32, .f32⟩
  | .hbm, ⟨4, _⟩ => ⟨S_, .f32⟩
  | .hbm, ⟨5, _⟩ => ⟨S4096x128x32, .f32⟩
  | .hbm, ⟨6, _⟩ => ⟨S4096x128x32, .f32⟩
  | .hbm, ⟨7, _⟩ => ⟨S4096x128x1, .f32⟩
  | .hbm, ⟨8, _⟩ => ⟨S4096x128x32, .f32⟩
  | .hbm, ⟨9, _⟩ => ⟨S4096x128x32, .f32⟩
  | .hbm, ⟨10, _⟩ => ⟨S4096x4096, .f32⟩
  | .hbm, ⟨11, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S_S4096x128x32 : S_.BroadcastsInDim S4096x128x32 (![] : Fin 0 → Fin S4096x128x32.rank)
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.WordDequantFrame.lean ====
/- The class-A half of region 0 (the dequantise pallas_call) at a parameter V, the TensorCore's buffer
   contents when the region is entered: each window's block at a point, what the body leaves in the output window's
   staging buffer as a function of the two input blocks, the body's triple, the pipeline's proof data and its body
   obligation. Generic in the float interpretation. -/
import proofs.«135212_j5093831213493_2_alg».proof.Proof.Gen.Kernel.Launch
import proofs.«135212_j5093831213493_2_alg».proof.Proof.Gen.Kernel.Skeleton
import proofs.«135212_j5093831213493_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Deq

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the scales): its current staging buffer holds its block at every point, fetched there or not,
    for any proof data whose array is V's and whose body leaves the block in place; the window is uncut and never
    idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the codes): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev rS : Rect S64x128 := Rect.unit (s := S64x128) ![0, 0] S64x128.size inb_S64x128_S64x128_0_0
abbrev rC : Rect S64x128x32 := Rect.unit (s := S64x128x32) ![0, 0, 0] S64x128x32.size inb_S64x128x32_S64x128x32_0_0_0

/-! ## What the body leaves in the output window's buffer -/

/-- Window 2's staging buffer after the body, from the two input blocks (x0 the scales, x1 the codes): its one
    store as a piece, the payload the skeleton's. -/
def out0_2 (x0 : Vec F S64x128 .f32) (x1 : Vec F S64x128x32 .i32) : Vec F S64x128x32 .bf16 :=
  View.canon [⟨rC, k0_pay1 (View.ld x1 rC) (View.ld x0 rS)⟩]

/-- The store tiles the buffer, so it covers it. -/
theorem cover0_2 (p0 : Vec F S64x128x32 .bf16) (y : S64x128x32.Idx) :
    ∃ pc ∈ ([⟨rC, p0⟩] : List (View.Piece (Elt F) S64x128x32 .bf16)), y ∈ pc.1.set :=
  View.cover_of_tiled [⟨rC, p0⟩] S64x128x32.size (by rfl) y

/-! ## The body's triple -/

set_option maxHeartbeats 1000000 in
/-- The kernel body on whole staging memrefs, the inputs' at read contents x0, x1 and the output's at anything, runs
    to the continuation holding the inputs' as they were and the output's at out0_2 of the inputs'. -/
theorem sound_kernel0 (c : Dev nD) (E : Set ℕ) (i : grid0.Coords)
    (arg1 : Memref sig .tc .vmem S64x128 .f32) (harg1 : arg1.IsWhole)
    (arg2 : Memref sig .tc .vmem S64x128x32 .i32) (harg2 : arg2.IsWhole)
    (arg3 : Memref sig .tc .vmem S64x128x32 .bf16) (harg3 : arg3.IsWhole)
    (x0 : Vec F S64x128 .f32) (x1 : Vec F S64x128x32 .i32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them (V); after the body at point t each
    input's buffer at its block and the output's at out0_2 of the input blocks; the class-A invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so sound_kernel0 applies; the invariant and the
    core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Deq

end
-- ==== Proof.WordMatmulShared.lean ====
/-
  The blocked matrix product (the second pallas_call), on the grid 4 × 4 × 4 of points (i, j, k): what every part of
  its frame is stated over. Point (i, j, k) reads block (i, k) of the left matrix and block (j, k) of the right one,
  adds their product over the shared axis into an accumulator kept in a scratch buffer — cleared first when k = 0 — and,
  when k = 3, copies the accumulator into block (i, j) of the result. Here: a window's block at a point, the two
  conditions (k = 0, k = 3) in closed form over the linear point number t (k = t mod 4), where the result window is
  left untouched, and the scoped buffers the region does not stage.
-/
import proofs.«135212_j5093831213493_2_alg».proof.Proof.Gen.Kernel.Launch
import proofs.«135212_j5093831213493_2_alg».proof.Proof.Gen.Kernel.Skeleton
import proofs.«135212_j5093831213493_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement is made at this parameter
variable (V : (c : Dev nD) → (b : Ref sig .tc) → Buf (Elt F) ((c : Thread nD τ).loc b))

/-! ## The windows' blocks -/

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, for any proof data over these arrays whose body
    leaves the block in place. -/
theorem before_left_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the right operand. -/
theorem before_right_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- "k = 0": the accumulator is cleared first. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- "k = 3": the accumulator is copied out. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-! ## Where the result window is left untouched -/

theorem live_left : ∀ t : Fin cfg1.N, cfg1.idle 0 (grid1.coords t) = false := by decide +kernel
theorem live_right : ∀ t : Fin cfg1.N, cfg1.idle 1 (grid1.coords t) = false := by decide +kernel
/-- Unless k = 3 the body stores nothing into the result's staging buffer, -/
theorem idle_out : ∀ t : Fin cfg1.N, ¬isLast (grid1.coords t) → cfg1.idle 2 (grid1.coords t) = true := by decide +kernel
/-- and the block is not written back there. -/
theorem noFlush_out : ∀ t : Fin cfg1.N, ¬isLast (grid1.coords t) → (cfg1.win 2).flush t = false := by decide +kernel
theorem live_out : ∀ t : Fin cfg1.N, isLast (grid1.coords t) → cfg1.idle 2 (grid1.coords t) = false := by decide +kernel

/-! ## The memrefs the body is called on -/

/-- One staging buffer of the result window, through which its contents are stated. -/
abbrev outView : View sig .tc .vmem S1024x1024 .f32 := (Memref.whole cc1_stg2_0 : Memref sig .tc .vmem S1024x1024 .f32).view
abbrev mL (t : Fin cfg1.N) : Memref sig .tc .vmem S1024x1024 .f32 := win1_0.stage (cfg1.slots t 0)
abbrev hL (t : Fin cfg1.N) : (mL t).IsWhole := hstage1_0 ((cfg1.slots t 0).cast nbuf1_0)
abbrev mR (t : Fin cfg1.N) : Memref sig .tc .vmem S1024x1024 .bf16 := win1_1.stage (cfg1.slots t 1)
abbrev hR (t : Fin cfg1.N) : (mR t).IsWhole := hstage1_1 ((cfg1.slots t 1).cast nbuf1_1)
abbrev mO (t : Fin cfg1.N) : Memref sig .tc .vmem S1024x1024 .f32 := win1_2.stage (cfg1.slots t 2)
abbrev hO (t : Fin cfg1.N) : (mO t).IsWhole := hstage1_2 ((cfg1.slots t 2).cast nbuf1_2)
/-- The accumulator: a whole scoped buffer of the kernel's own. -/
abbrev accM : Memref sig .tc .vmem S1024x1024 .f32 := Memref.whole cc1_scratch0
abbrev accView : View sig .tc .vmem S1024x1024 .f32 := accM.view

/-! ## The scoped buffers the region does not stage -/

/-- The first pallas_call's six staging buffers at anything, beside `S` (what is said of the accumulator). -/
def scopedWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S)

/-- The region's invariant with nothing said of the accumulator: those buffers, the accumulator at anything, and the
    generator register at some state. -/
theorem plain_eq (c : Dev nD) :
    (Pipeline.ΦA spec1 c : sProp 𝕄)
      = iprop(scopedWith c (iprop(∃ d, owns (c : Thread nD τ) accM fullShare d)) ∗ (∃ r, prngReg c r)) := by
  unfold Pipeline.ΦA scopedWith; rw [scopedRest1_eq]; simp only [accM, owns_whole]; try rfl

end Cert.Kernel.Mm

end
-- ==== Proof.WordMatmulRuns.lean ====
/-
  The body of the blocked matrix product run once in each of its three cases — k = 0 (the accumulator is cleared, then
  the blocks' product added; nothing goes to the result), 0 < k < 3 (the product is added to what the point before
  left), k = 3 (the same, and the accumulator is then copied into the result's buffer) — on whole memrefs: the inputs
  are handed back as found, and what the stores leave in the accumulator and in the result's buffer is a list of
  pieces, last first, which the run itself finds.
-/
import proofs.«135212_j5093831213493_2_alg».proof.Proof.WordMatmulShared
set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- k = 0. The result's buffer, at `xi`, comes back untouched; the accumulator, at anything, ends at the pieces `LS`. -/
noncomputable def runFirst (c : Dev nD) (i : grid1.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : isFirst i) (hc1 : ¬isLast i)
    (x0 : Vec F S1024x1024 .f32) (x1 : Vec F S1024x1024 .bf16) :
    Σ' (LO : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) a3 fullShare x0 ∗ owns (c : Thread nD τ) a4 fullShare x1 ∗ owns (c : Thread nD τ) a5 fullShare xi ∗ (∃ d, owns (c : Thread nD τ) a6 fullShare d)
            ∗ (iprop(owns (c : Thread nD τ) a3 fullShare x0 ∗ owns (c : Thread nD τ) a4 fullShare x1 ∗ owns (c : Thread nD τ) a5 fullShare xi ∗ (∃ f, a6.view.loc (c : Thread nD τ) ↦[a6.view.set]{fullShare} a6.view.writes (Elt F) f LS)) -∗ K ⟨⟩))
          ⊢ wp frame (wpE (defs₀ (F := F)) Variants.none c none) E (cc1__matmul_kernel i a3 h3 a4 h4 a5 h5 a6 h6) K } := by
  refine ⟨[], ?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := h3.eq_unread hf0; obtain rfl := h4.eq_unread hf1; obtain rfl := h5.eq_unread hf2
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    iexists _; iexact HS

set_option maxHeartbeats 1000000 in
/-- 0 < k < 3. The result's buffer comes back untouched; the accumulator, at `xs`, ends at the pieces `LS`. -/
noncomputable def runMid (c : Dev nD) (i : grid1.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬isFirst i) (hc1 : ¬isLast i)
    (x0 : Vec F S1024x1024 .f32) (x1 : Vec F S1024x1024 .bf16) (xs : Vec F S1024x1024 .f32) :
    Σ' (LO : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) a3 fullShare x0 ∗ owns (c : Thread nD τ) a4 fullShare x1 ∗ owns (c : Thread nD τ) a5 fullShare xi ∗ owns (c : Thread nD τ) a6 fullShare xs
            ∗ (iprop(owns (c : Thread nD τ) a3 fullShare x0 ∗ owns (c : Thread nD τ) a4 fullShare x1 ∗ owns (c : Thread nD τ) a5 fullShare xi ∗ (∃ f, a6.view.loc (c : Thread nD τ) ↦[a6.view.set]{fullShare} a6.view.writes (Elt F) f LS)) -∗ K ⟨⟩))
          ⊢ wp frame (wpE (defs₀ (F := F)) Variants.none c none) E (cc1__matmul_kernel i a3 h3 a4 h4 a5 h5 a6 h6) K } := by
  refine ⟨[], ?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := h3.eq_unread hf0; obtain rfl := h4.eq_unread hf1; obtain rfl := h5.eq_unread hf2; obtain rfl := h6.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    iexists _; iexact HS

set_option maxHeartbeats 1000000 in
/-- k = 3. The result's buffer, at anything, ends at the pieces `LO`; the accumulator, at `xs`, at `LS`. -/
noncomputable def runLast (c : Dev nD) (i : grid1.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬isFirst i) (hc1 : isLast i)
    (x0 : Vec F S1024x1024 .f32) (x1 : Vec F S1024x1024 .bf16) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a5 fullShare d) ∗ owns (c : Thread nD τ) a6 fullShare xs
            ∗ (iprop(owns (c : Thread nD τ) a3 fullShare x0 ∗ owns (c : Thread nD τ) a4 fullShare x1 ∗ (∃ f, a5.view.loc (c : Thread nD τ) ↦[a5.view.set]{fullShare} a5.view.writes (Elt F) f LO) ∗ (∃ f, a6.view.loc (c : Thread nD τ) ↦[a6.view.set]{fullShare} a6.view.writes (Elt F) f LS)) -∗ K ⟨⟩))
          ⊢ wp frame (wpE (defs₀ (F := F)) Variants.none c none) E (cc1__matmul_kernel i a3 h3 a4 h4 a5 h5 a6 h6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := h3.eq_unread hf0; obtain rfl := h4.eq_unread hf1; obtain rfl := h6.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    iexists _; iexact HS

end Cert.Kernel.Mm

end
-- ==== Proof.WordMatmulFrame.lean ====
/-
  The frame of the blocked matrix product: what the accumulator and the result's staging buffer hold after each grid
  point, by recursion on the point's number (at k = 0 the point starts afresh; otherwise it continues from what the
  point before left in the accumulator), the region's invariant (the accumulator at that named contents between
  points), the proof data of the pipeline and the body obligation at every point.
-/
import proofs.«135212_j5093831213493_2_alg».proof.Proof.WordMatmulRuns
set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a point given by its number -/

theorem first_of (n : ℕ) (hn : n < cfg1.N) (h : n % 4 = 0) : isFirst (grid1.coords ⟨n, hn⟩) := (isFirst_iff ⟨n, hn⟩).mpr h
theorem notFirst_of (n : ℕ) (hn : n < cfg1.N) (h : ¬n % 4 = 0) : ¬isFirst (grid1.coords ⟨n, hn⟩) := fun h' => h ((isFirst_iff ⟨n, hn⟩).mp h')
theorem last_of (n : ℕ) (hn : n < cfg1.N) (h : n % 4 = 3) : isLast (grid1.coords ⟨n, hn⟩) := (isLast_iff ⟨n, hn⟩).mpr h
theorem notLast_of (n : ℕ) (hn : n < cfg1.N) (h : ¬n % 4 = 3) : ¬isLast (grid1.coords ⟨n, hn⟩) := fun h' => h ((isLast_iff ⟨n, hn⟩).mp h')

/-- The body's run at point `n` when k = 0, on the memrefs the pipeline passes and the operands' blocks there. -/
abbrev firstAt (c : Dev nD) (n : ℕ) (hn : n < cfg1.N) (h0 : n % 4 = 0) (h1 : ¬n % 4 = 3) :=
  runFirst (F := F) c (grid1.coords ⟨n, hn⟩) (mL ⟨n, hn⟩) (hL ⟨n, hn⟩) (mR ⟨n, hn⟩) (hR ⟨n, hn⟩) (mO ⟨n, hn⟩) (hO ⟨n, hn⟩) accM (Memref.isWhole_whole _)
    (first_of n hn h0) (notLast_of n hn h1) (blockAt V c 0 ⟨n, hn⟩) (blockAt V c 1 ⟨n, hn⟩)
/-- When 0 < k < 3, from the accumulator's contents `xs`. -/
abbrev midAt (c : Dev nD) (n : ℕ) (hn : n < cfg1.N) (h0 : ¬n % 4 = 0) (h1 : ¬n % 4 = 3) (xs : Vec F S1024x1024 .f32) :=
  runMid (F := F) c (grid1.coords ⟨n, hn⟩) (mL ⟨n, hn⟩) (hL ⟨n, hn⟩) (mR ⟨n, hn⟩) (hR ⟨n, hn⟩) (mO ⟨n, hn⟩) (hO ⟨n, hn⟩) accM (Memref.isWhole_whole _)
    (notFirst_of n hn h0) (notLast_of n hn h1) (blockAt V c 0 ⟨n, hn⟩) (blockAt V c 1 ⟨n, hn⟩) xs
/-- When k = 3, from the accumulator's contents `xs`. -/
abbrev lastAt (c : Dev nD) (n : ℕ) (hn : n < cfg1.N) (h0 : ¬n % 4 = 0) (h1 : n % 4 = 3) (xs : Vec F S1024x1024 .f32) :=
  runLast (F := F) c (grid1.coords ⟨n, hn⟩) (mL ⟨n, hn⟩) (hL ⟨n, hn⟩) (mR ⟨n, hn⟩) (hR ⟨n, hn⟩) (mO ⟨n, hn⟩) (hO ⟨n, hn⟩) accM (Memref.isWhole_whole _)
    (notFirst_of n hn h0) (last_of n hn h1) (blockAt V c 0 ⟨n, hn⟩) (blockAt V c 1 ⟨n, hn⟩) xs

/-- A list of pieces read back as the accumulator's contents, -/
def accOf (L : List (View.Piece (Elt F) S1024x1024 .f32)) : Vec F S1024x1024 .f32 :=
  accView.read (Elt F) (accView.writes (Elt F) accView.junk L)
/-- and as the result buffer's. -/
def outOf (L : List (View.Piece (Elt F) S1024x1024 .f32)) : Vec F S1024x1024 .f32 :=
  outView.read (Elt F) (outView.writes (Elt F) outView.junk L)

/-! ## The pieces cover their buffers -/

theorem accCover_first (c : Dev nD) (n : ℕ) (hn : n < cfg1.N) (h0 : n % 4 = 0) (h1 : ¬n % 4 = 3) (y : S1024x1024.Idx) :
    ∃ pc ∈ (firstAt V c n hn h0 h1).2.1, y ∈ pc.1.set :=
  View.cover_of_tiledL (firstAt V c n hn h0 h1).2.1 S1024x1024.size (by sl_kernel_rfl) y
theorem accCover_mid (c : Dev nD) (n : ℕ) (hn : n < cfg1.N) (h0 : ¬n % 4 = 0) (h1 : ¬n % 4 = 3) (xs : Vec F S1024x1024 .f32) (y : S1024x1024.Idx) :
    ∃ pc ∈ (midAt V c n hn h0 h1 xs).2.1, y ∈ pc.1.set :=
  View.cover_of_tiledL (midAt V c n hn h0 h1 xs).2.1 S1024x1024.size (by sl_kernel_rfl) y
theorem accCover_last (c : Dev nD) (n : ℕ) (hn : n < cfg1.N) (h0 : ¬n % 4 = 0) (h1 : n % 4 = 3) (xs : Vec F S1024x1024 .f32) (y : S1024x1024.Idx) :
    ∃ pc ∈ (lastAt V c n hn h0 h1 xs).2.1, y ∈ pc.1.set :=
  View.cover_of_tiledL (lastAt V c n hn h0 h1 xs).2.1 S1024x1024.size (by sl_kernel_rfl) y
theorem outCover_last (c : Dev nD) (n : ℕ) (hn : n < cfg1.N) (h0 : ¬n % 4 = 0) (h1 : n % 4 = 3) (xs : Vec F S1024x1024 .f32) (y : S1024x1024.Idx) :
    ∃ pc ∈ (lastAt V c n hn h0 h1 xs).1, y ∈ pc.1.set :=
  View.cover_of_tiledL (lastAt V c n hn h0 h1 xs).1 S1024x1024.size (by sl_kernel_rfl) y

/-! ## What the buffers hold after each point -/

/-- After point `n`: (the result's staging buffer, the accumulator). Where k ≠ 3 the first component is a placeholder
    nothing consults: the window is idle there. -/
def stateAt (c : Dev nD) : (n : ℕ) → n < cfg1.N → Vec F S1024x1024 .f32 × Vec F S1024x1024 .f32
  | 0, hn => (outOf (firstAt V c 0 hn (Nat.zero_mod _) (by decide)).1, accOf (firstAt V c 0 hn (Nat.zero_mod _) (by decide)).2.1)
  | n + 1, hn =>
    if h0 : (n + 1) % 4 = 0 then
      (outOf (firstAt V c (n + 1) hn h0 (by omega)).1, accOf (firstAt V c (n + 1) hn h0 (by omega)).2.1)
    else if h1 : (n + 1) % 4 = 3 then
      (outOf (lastAt V c (n + 1) hn h0 h1 (stateAt c n (Nat.lt_of_succ_lt hn)).2).1, accOf (lastAt V c (n + 1) hn h0 h1 (stateAt c n (Nat.lt_of_succ_lt hn)).2).2.1)
    else
      (outOf (midAt V c (n + 1) hn h0 h1 (stateAt c n (Nat.lt_of_succ_lt hn)).2).1, accOf (midAt V c (n + 1) hn h0 h1 (stateAt c n (Nat.lt_of_succ_lt hn)).2).2.1)

theorem stateAt_first (c : Dev nD) (n : ℕ) (hn : n < cfg1.N) (h0 : n % 4 = 0) (h1 : ¬n % 4 = 3) :
    stateAt V c n hn = (outOf (firstAt V c n hn h0 h1).1, accOf (firstAt V c n hn h0 h1).2.1) := by
  cases n with
  | zero => rfl
  | succ n => exact dif_pos h0

theorem stateAt_mid (c : Dev nD) (n : ℕ) (hn : n < cfg1.N) (h0 : ¬n % 4 = 0) (h1 : ¬n % 4 = 3) :
    stateAt V c n hn = (outOf (midAt V c n hn h0 h1 (stateAt V c (n - 1) (Nat.lt_of_le_of_lt (Nat.sub_le _ _) hn)).2).1,
      accOf (midAt V c n hn h0 h1 (stateAt V c (n - 1) (Nat.lt_of_le_of_lt (Nat.sub_le _ _) hn)).2).2.1) := by
  cases n with
  | zero => exact absurd (Nat.zero_mod _) h0
  | succ n => exact (dif_neg h0).trans ((dif_neg h1).trans rfl)

theorem stateAt_last (c : Dev nD) (n : ℕ) (hn : n < cfg1.N) (h0 : ¬n % 4 = 0) (h1 : n % 4 = 3) :
    stateAt V c n hn = (outOf (lastAt V c n hn h0 h1 (stateAt V c (n - 1) (Nat.lt_of_le_of_lt (Nat.sub_le _ _) hn)).2).1,
      accOf (lastAt V c n hn h0 h1 (stateAt V c (n - 1) (Nat.lt_of_le_of_lt (Nat.sub_le _ _) hn)).2).2.1) := by
  cases n with
  | zero => exact absurd (Nat.zero_mod _) h0
  | succ n => exact (dif_neg h0).trans ((dif_pos h1).trans rfl)

/-! ## The invariant -/

/-- Before point `n`: at the start nothing is said of the accumulator; later it holds what point `n - 1` left. -/
def PhiAcc (c : Dev nD) : (n : ℕ) → n ≤ cfg1.N → sProp 𝕄
  | 0, _ => Pipeline.ΦA spec1 c
  | n + 1, hn => iprop(scopedWith c (owns (c : Thread nD τ) accM fullShare (stateAt V c n hn).2) ∗ (∃ r, prngReg c r))

theorem PhiAcc_zero (c : Dev nD) (n : ℕ) (h : n ≤ cfg1.N) (hz : n = 0) : PhiAcc V c n h = Pipeline.ΦA spec1 c := by
  subst hz; rfl
theorem PhiAcc_succ (c : Dev nD) (n : ℕ) (hn : n < cfg1.N) :
    PhiAcc V c (n + 1) hn = iprop(scopedWith c (owns (c : Thread nD τ) accM fullShare (stateAt V c n hn).2) ∗ (∃ r, prngReg c r)) := rfl
theorem PhiAcc_pos (c : Dev nD) (n : ℕ) (h : n ≤ cfg1.N) (hz : n ≠ 0) :
    PhiAcc V c n h = iprop(scopedWith c (owns (c : Thread nD τ) accM fullShare (stateAt V c (n - 1) (by omega)).2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => (stateAt V c t.val t.isLt).1
  Φ t := PhiAcc V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi_castSucc (c : Dev nD) (t : Fin cfg1.N) :
    (dat1 V c).Φ t.castSucc = PhiAcc V c t.val (Nat.le_of_lt t.isLt) := by
  dsimp only [dat1]; simp only [Fin.coe_castSucc]
theorem after_left (c : Dev nD) (t : Fin cfg1.N) : (dat1 V c).after 0 t = blockAt V c 0 t := by dsimp only [dat1]
theorem after_right (c : Dev nD) (t : Fin cfg1.N) : (dat1 V c).after 1 t = blockAt V c 1 t := by dsimp only [dat1]
theorem after_out (c : Dev nD) (t : Fin cfg1.N) : (dat1 V c).after 2 t = (stateAt V c t.val t.isLt).1 := by dsimp only [dat1]
theorem before_left (c : Dev nD) (t : Fin cfg1.N) (d) : (dat1 V c).before 0 t d = blockAt V c 0 t :=
  before_left_of V (dat1 V c) (A_eq1 V c 0) (after_left V c) t d
theorem before_right (c : Dev nD) (t : Fin cfg1.N) (d) : (dat1 V c).before 1 t d = blockAt V c 1 t :=
  before_right_of V (dat1 V c) (A_eq1 V c 1) (after_right V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (mL t) fullShare ((dat1 V c).before 0 t d))
    ∗ (∃ d, owns (c : Thread nD τ) (mR t) fullShare ((dat1 V c).before 1 t d))
    ∗ (∃ d, owns (c : Thread nD τ) (mO t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves_left (c : Dev nD) (t : Fin cfg1.N) :
    (dat1 V c).leavesExact 0 t = owns (c : Thread nD τ) (mL t) fullShare (blockAt V c 0 t) := by
  unfold Dat.leavesExact; rw [live_left t, after_left]
theorem leaves_right (c : Dev nD) (t : Fin cfg1.N) :
    (dat1 V c).leavesExact 1 t = owns (c : Thread nD τ) (mR t) fullShare (blockAt V c 1 t) := by
  unfold Dat.leavesExact; rw [live_right t, after_right]

set_option maxHeartbeats 4800000 in
/-- The body at any point: the operands' memrefs hold their blocks; the point's number mod 4 says which case it is in;
    the invariant hands the body the accumulator (at anything before the first point, otherwise at what the point before
    left) and takes it back at this point's contents; where k ≠ 3 the result's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before_left, before_right]
  rw [show (dat1 V c).owesAt () t.succ = (dat1 V c).owesAt () t.castSucc from rfl]
  rw [show (dat1 V c).Φ t.succ = PhiAcc V c (t.val + 1) t.isLt from rfl, PhiAcc_succ, leaves_left, leaves_right]
  have hN : t.val < 64 := lt_of_lt_of_eq t.isLt (show cfg1.N = 64 from N_1)
  by_cases h0 : t.val % 4 = 0
  · have h1 : ¬t.val % 4 = 3 := by omega
    rw [Dat.leavesExact_idle (dat1 V c) 2 t (idle_out t (notLast_of t.val t.isLt h1)) (noFlush_out t (notLast_of t.val t.isLt h1))]
    rw [stateAt_first V c t.val t.isLt h0 h1]
    (try dsimp only)
    by_cases hz : t.val = 0
    · rw [Phi_castSucc V c t, PhiAcc_zero V c _ _ hz, plain_eq]
      unfold scopedWith
      iintro ⟨⟨⟨A0, A1, A2, A3, A4, A5, HS⟩, Hg⟩, Ho, ⟨%d0, H0⟩, ⟨%d1, H1⟩, ⟨%d2, H2⟩⟩
      iapply ((firstAt V c t.val t.isLt h0 h1).2.2 _ Set.univ _)
      isplitl [H0]; · iexact H0
      isplitl [H1]; · iexact H1
      isplitl [H2]; · iexact H2
      isplitl [HS]; · iexact HS
      iintro ⟨H0, H1, H2, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold accOf owns; iexists _; isplitr
          swap; · iexact HS
          ipureintro; exact View.read_writes_of_cover _ _ _ _ _ (accCover_first V c t.val t.isLt h0 h1)
        iexact Hg
      isplitl [Ho]; · iexact Ho
      isplitl [H0]; · iexact H0
      isplitl [H1]; · iexact H1
      iexists _; iexact H2
    · rw [Phi_castSucc V c t, PhiAcc_pos V c _ _ hz]
      unfold scopedWith
      iintro ⟨⟨⟨A0, A1, A2, A3, A4, A5, HS⟩, Hg⟩, Ho, ⟨%d0, H0⟩, ⟨%d1, H1⟩, ⟨%d2, H2⟩⟩
      iapply ((firstAt V c t.val t.isLt h0 h1).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold accOf owns; iexists _; isplitr
          swap; · iexact HS
          ipureintro; exact View.read_writes_of_cover _ _ _ _ _ (accCover_first V c t.val t.isLt h0 h1)
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat1 V c).leavesExact 2 t = owns (c : Thread nD τ) (mO t) fullShare ((dat1 V c).after 2 t) from by
        unfold Dat.leavesExact; rw [live_out t (last_of t.val t.isLt h1)], after_out]
      rw [stateAt_last V c t.val t.isLt h0 h1]
      (try dsimp only)
      rw [Phi_castSucc V c t, PhiAcc_pos V c _ _ hz]
      unfold scopedWith
      iintro ⟨⟨⟨A0, A1, A2, A3, A4, A5, HS⟩, Hg⟩, Ho, ⟨%d0, H0⟩, ⟨%d1, H1⟩, ⟨%d2, H2⟩⟩
      iapply ((lastAt V c t.val t.isLt h0 h1 _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold accOf owns; iexists _; isplitr
          swap; · iexact HS
          ipureintro; exact View.read_writes_of_cover _ _ _ _ _ (accCover_last V c t.val t.isLt h0 h1 _)
        iexact Hg
      isplitl [Ho]; · iexact Ho
      isplitl [H0]; · iexact H0
      isplitl [H1]; · iexact H1
      unfold outOf owns; iexists _; isplitr
      swap; · iexact H2
      ipureintro; exact View.read_writes_of_cover _ _ _ _ _ (outCover_last V c t.val t.isLt h0 h1 _)
    · rw [Dat.leavesExact_idle (dat1 V c) 2 t (idle_out t (notLast_of t.val t.isLt h1)) (noFlush_out t (notLast_of t.val t.isLt h1))]
      rw [stateAt_mid V c t.val t.isLt h0 h1]
      (try dsimp only)
      rw [Phi_castSucc V c t, PhiAcc_pos V c _ _ hz]
      unfold scopedWith
      iintro ⟨⟨⟨A0, A1, A2, A3, A4, A5, HS⟩, Hg⟩, Ho, ⟨%d0, H0⟩, ⟨%d1, H1⟩, ⟨%d2, H2⟩⟩
      iapply ((midAt V c t.val t.isLt h0 h1 _).2.2 _ Set.univ _)
      isplitl [H0]; · iexact H0
      isplitl [H1]; · iexact H1
      isplitl [H2]; · iexact H2
      isplitl [HS]; · iexact HS
      iintro ⟨H0, H1, H2, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold accOf owns; iexists _; isplitr
          swap; · iexact HS
          ipureintro; exact View.read_writes_of_cover _ _ _ _ _ (accCover_mid V c t.val t.isLt h0 h1 _)
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

theorem inv_in (c : Dev nD) : Pipeline.ΦA spec1 c ⊢ (dat1 V c).Φ 0 := by
  rw [show (dat1 V c).Φ 0 = PhiAcc V c 0 (Nat.zero_le _) from rfl, PhiAcc_zero V c 0 _ rfl]
  try exact Idealize.SL.BI.Entails.refl _

/-- After the last point the accumulator's named contents are forgotten. -/
theorem inv_out (c : Dev nD) : (dat1 V c).Φ (Fin.last cfg1.N) ⊢ Pipeline.ΦA spec1 c := by
  rw [show (dat1 V c).Φ (Fin.last cfg1.N) = PhiAcc V c (Fin.last cfg1.N).val (Nat.le_of_lt_succ (Fin.last cfg1.N).isLt) from rfl,
    PhiAcc_pos V c _ _ (by rw [Fin.val_last]; have : cfg1.N = 64 := N_1; omega), plain_eq]
  unfold scopedWith
  iintro ⟨⟨A0, A1, A2, A3, A4, A5, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    iexists _; iexact HS
  iexact Hg

end Cert.Kernel.Mm

end
-- ==== Proof.WordKernelRun.lean ====
/-
  The whole program as four items — the dequantising region, the two reshapes, the blocked matrix product, the last
  reshape — run from the launch memory: the unscoped buffers' contents at each boundary (a fold: a region replaces its
  arrays by what its write-backs leave, a stretch of host operations applies them), each region as a segment between
  two such boundaries, and the run: every weakly fair execution ends with every unscoped buffer at the last boundary's
  contents. Read at the arguments this is the frame; read at the result it is the kernel's value.
-/
import proofs.«135212_j5093831213493_2_alg».proof.Proof.WordDequantFrame
import proofs.«135212_j5093831213493_2_alg».proof.Proof.WordMatmulFrame
import proofs.«135212_j5093831213493_2_alg».proof.Proof.Gen.Kernel.Regions

set_option maxRecDepth 16384

noncomputable section

namespace Cert.Kernel.Both

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
abbrev B0 : (c : Dev nD) → (b : Ref sig .tc) → Buf (Elt F) ((c : Thread nD τ).loc b) := fun c b => W0 m c b
/-- After the dequantising region: its arrays at what its write-backs leave, the rest as entered. -/
def W1 (c : Dev nD) : Valuation τ sig (Elt F) :=
  Pipeline.withArrays spec0 c (W0 m c) fun w => (Deq.dat0 (B0 m) c).arrAt w cfg0.N
theorem W1_arr (c : Dev nD) (w : Fin cfg0.W) :
    W1 m c (Proc.devRef .tc (Pipeline.arrRef spec0 w)) = (Deq.dat0 (B0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev B1 : (c : Dev nD) → (b : Ref sig .tc) → Buf (Elt F) ((c : Thread nD τ).loc b) := fun c b => W1 m c b
theorem exit0_arr (c : Dev nD) (w : Fin cfg0.W) : (Deq.dat0 (B0 m) c).arrAt w cfg0.N = B1 m c (Pipeline.arrRef spec0 w) :=
  (W1_arr m c w).symm
theorem exit0_rest (c : Dev nD) : ∀ b, b ∉ Finset.univ.image (Pipeline.arrRef spec0) → B1 m c b = B0 m c b :=
  fun b hb => W1_of_ne m c b fun w e => hb (Finset.mem_image.mpr ⟨w, Finset.mem_univ _, e⟩)

/-- After the two reshapes. -/
abbrev W2 : Dev nD → Valuation τ sig (Elt F) := fun c => StableHlo.after hostOps1 (W1 m c)
abbrev B2 : (c : Dev nD) → (b : Ref sig .tc) → Buf (Elt F) ((c : Thread nD τ).loc b) := fun c b => W2 m c b
/-- After the matrix product. -/
def W3 (c : Dev nD) : Valuation τ sig (Elt F) :=
  Pipeline.withArrays spec1 c (W2 m c) fun w => (Mm.dat1 (B2 m) c).arrAt w cfg1.N
theorem W3_arr (c : Dev nD) (w : Fin cfg1.W) :
    W3 m c (Proc.devRef .tc (Pipeline.arrRef spec1 w)) = (Mm.dat1 (B2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev B3 : (c : Dev nD) → (b : Ref sig .tc) → Buf (Elt F) ((c : Thread nD τ).loc b) := fun c b => W3 m c b
theorem exit1_arr (c : Dev nD) (w : Fin cfg1.W) : (Mm.dat1 (B2 m) c).arrAt w cfg1.N = B3 m c (Pipeline.arrRef spec1 w) :=
  (W3_arr m c w).symm
theorem exit1_rest (c : Dev nD) : ∀ b, b ∉ Finset.univ.image (Pipeline.arrRef spec1) → B3 m c b = B2 m c b :=
  fun b hb => W3_of_ne m c b fun w e => hb (Finset.mem_image.mpr ⟨w, Finset.mem_univ _, e⟩)
/-- After the last reshape. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := (W1_arr m c 0).trans (((Deq.dat0 (B0 m) c).arrAt_in 0 rfl _).trans (Deq.A_eq0 (B0 m) c 0))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := (W1_arr m c 1).trans (((Deq.dat0 (B0 m) c).arrAt_in 1 rfl _).trans (Deq.A_eq0 (B0 m) c 1))
    _ = m ((c : Thread nD τ).loc main_arg2) := rfl

/-! ## The proof data of both pipelines and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Deq.dat0 (B0 m) c
  | ⟨1, _⟩ => fun c => Mm.dat1 (B2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W4 m c)
/-- At the end the generator register's state is let go; what is left beside the buffers is that nothing is owed. -/
theorem rest_end (c : Dev nD) : (R (F := F) c) ⊢ (iprop(∃ W, owes (c : Thread nD τ) (0 : CellTallies nD τ sig Unit) W) : sProp 𝕄) := by
  iintro ⟨-, Ho⟩; iexact Ho

/-! ## The regions as segments -/

set_option backward.isDefEq.respectTransparency.types false in
/-- The dequantising region: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Deq.body_obligation0 (B0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (B0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B0 m c) (B1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix product: entered from every unscoped buffer at `W2`, left at `W3`; its invariant starts and ends with
    nothing said of the accumulator. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Mm.body_obligation1 (B2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (B2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Mm.inv_in (B2 m) c
    unfold Pipeline.ΦA at h
    rw [show (pdats m 1 c).Φ 0 = (Mm.dat1 (B2 m) c).Φ 0 from rfl]
    iintro ⟨Hp, -, Hr⟩
    iapply h
    isplitl [Hr]; · iexact Hr
    iexact Hp
  hout c := by
    have h := Mm.inv_out (B2 m) c
    unfold Pipeline.ΦA at h
    rw [Pipeline.ownSems0_none, show (pdats m 1 c).Φ (Fin.last _) = (Mm.dat1 (B2 m) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B2 m c) (B3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

abbrev items : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (items m) := (main_chain c).trans (by chain_rfl)

set_option backward.isDefEq.respectTransparency.types false in
/-- THE RUN: from any memory with zero counters every weakly fair execution terminates, nothing faulting, with the
    result buffer at the last boundary's contents and the three arguments as launched. -/
theorem run : θ_run defs (onTc (τ := τ) (main (F := F))) ⟨m, fun _ => 0, ρ⟩ (fun r => ∀ c : Dev nD,
      r.2.mem ((c.tc : Thread nD τ).loc main_v4) = W4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W4 m c))
    (hch := ⟨fun _ => .rfl, fun _ => .rfl, fun _ => .rfl, fun _ => .rfl, fun c => sep_mono .rfl (rest_end c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      unfold StableHlo.held
      iintro ⟨Hh, HSI⟩
      imodintro
      iapply (pointsTo_read_all (Pipeline.ucRefs τ sig) (fun b => (((c : Thread nD τ)).1, b)) (W4 m c) s')
      isplitl [Hh] <;> iassumption)
    (hQ := fun s h c =>
      ⟨h c _ (mem_uc main_v4 (by decide)),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.Kernel.Both

end
-- ==== Proof.DequantFrame.lean ====
/- The class-A half of region 0 (the dequantise pallas_call) at a parameter V, the TensorCore's buffer
   contents when the region is entered: each window's block at a point, what the body leaves in the output window's
   staging buffer as a function of the two input blocks, the body's triple, the pipeline's proof data and its body
   obligation. Generic in the float interpretation. -/
import proofs.«135212_j5093831213493_2_alg».proof.Proof.Gen.KernelIdeal.Launch
import proofs.«135212_j5093831213493_2_alg».proof.Proof.Gen.KernelIdeal.Skeleton
import proofs.«135212_j5093831213493_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Deq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the scales): its current staging buffer holds its block at every point, fetched there or not,
    for any proof data whose array is V's and whose body leaves the block in place; the window is uncut and never
    idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the codes): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev rS : Rect S64x128 := Rect.unit (s := S64x128) ![0, 0] S64x128.size inb_S64x128_S64x128_0_0
abbrev rC : Rect S64x128x32 := Rect.unit (s := S64x128x32) ![0, 0, 0] S64x128x32.size inb_S64x128x32_S64x128x32_0_0_0

/-! ## What the body leaves in the output window's buffer -/

/-- Window 2's staging buffer after the body, from the two input blocks (x0 the scales, x1 the codes): its one
    store as a piece, the payload the skeleton's. -/
def out0_2 (x0 : Vec F S64x128 .f32) (x1 : Vec F S64x128x32 .i32) : Vec F S64x128x32 .bf16 :=
  View.canon [⟨rC, k0_pay1 (View.ld x1 rC) (View.ld x0 rS)⟩]

/-- The store tiles the buffer, so it covers it. -/
theorem cover0_2 (p0 : Vec F S64x128x32 .bf16) (y : S64x128x32.Idx) :
    ∃ pc ∈ ([⟨rC, p0⟩] : List (View.Piece (Elt F) S64x128x32 .bf16)), y ∈ pc.1.set :=
  View.cover_of_tiled [⟨rC, p0⟩] S64x128x32.size (by rfl) y

/-! ## The body's triple -/

set_option maxHeartbeats 1000000 in
/-- The kernel body on whole staging memrefs, the inputs' at read contents x0, x1 and the output's at anything, runs
    to the continuation holding the inputs' as they were and the output's at out0_2 of the inputs'. -/
theorem sound_kernel0 (c : Dev nD) (E : Set ℕ) (i : grid0.Coords)
    (arg1 : Memref sig .tc .vmem S64x128 .f32) (harg1 : arg1.IsWhole)
    (arg2 : Memref sig .tc .vmem S64x128x32 .i32) (harg2 : arg2.IsWhole)
    (arg3 : Memref sig .tc .vmem S64x128x32 .bf16) (harg3 : arg3.IsWhole)
    (x0 : Vec F S64x128 .f32) (x1 : Vec F S64x128x32 .i32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them (V); after the body at point t each
    input's buffer at its block and the output's at out0_2 of the input blocks; the class-A invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so sound_kernel0 applies; the invariant and the
    core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Deq

end
-- ==== Proof.MatmulShared.lean ====
/-
  The blocked matrix product (the second pallas_call), on the grid 4 × 4 × 4 of points (i, j, k): what every part of
  its frame is stated over. Point (i, j, k) reads block (i, k) of the left matrix and block (j, k) of the right one,
  adds their product over the shared axis into an accumulator kept in a scratch buffer — cleared first when k = 0 — and,
  when k = 3, copies the accumulator into block (i, j) of the result. Here: a window's block at a point, the two
  conditions (k = 0, k = 3) in closed form over the linear point number t (k = t mod 4), where the result window is
  left untouched, and the scoped buffers the region does not stage.
-/
import proofs.«135212_j5093831213493_2_alg».proof.Proof.Gen.KernelIdeal.Launch
import proofs.«135212_j5093831213493_2_alg».proof.Proof.Gen.KernelIdeal.Skeleton
import proofs.«135212_j5093831213493_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement is made at this parameter
variable (V : (c : Dev nD) → (b : Ref sig .tc) → Buf (Elt F) ((c : Thread nD τ).loc b))

/-! ## The windows' blocks -/

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, for any proof data over these arrays whose body
    leaves the block in place. -/
theorem before_left_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the right operand. -/
theorem before_right_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- "k = 0": the accumulator is cleared first. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- "k = 3": the accumulator is copied out. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-! ## Where the result window is left untouched -/

theorem live_left : ∀ t : Fin cfg1.N, cfg1.idle 0 (grid1.coords t) = false := by decide +kernel
theorem live_right : ∀ t : Fin cfg1.N, cfg1.idle 1 (grid1.coords t) = false := by decide +kernel
/-- Unless k = 3 the body stores nothing into the result's staging buffer, -/
theorem idle_out : ∀ t : Fin cfg1.N, ¬isLast (grid1.coords t) → cfg1.idle 2 (grid1.coords t) = true := by decide +kernel
/-- and the block is not written back there. -/
theorem noFlush_out : ∀ t : Fin cfg1.N, ¬isLast (grid1.coords t) → (cfg1.win 2).flush t = false := by decide +kernel
theorem live_out : ∀ t : Fin cfg1.N, isLast (grid1.coords t) → cfg1.idle 2 (grid1.coords t) = false := by decide +kernel

/-! ## The memrefs the body is called on -/

/-- One staging buffer of the result window, through which its contents are stated. -/
abbrev outView : View sig .tc .vmem S1024x1024 .f32 := (Memref.whole cc1_stg2_0 : Memref sig .tc .vmem S1024x1024 .f32).view
abbrev mL (t : Fin cfg1.N) : Memref sig .tc .vmem S1024x1024 .f32 := win1_0.stage (cfg1.slots t 0)
abbrev hL (t : Fin cfg1.N) : (mL t).IsWhole := hstage1_0 ((cfg1.slots t 0).cast nbuf1_0)
abbrev mR (t : Fin cfg1.N) : Memref sig .tc .vmem S1024x1024 .bf16 := win1_1.stage (cfg1.slots t 1)
abbrev hR (t : Fin cfg1.N) : (mR t).IsWhole := hstage1_1 ((cfg1.slots t 1).cast nbuf1_1)
abbrev mO (t : Fin cfg1.N) : Memref sig .tc .vmem S1024x1024 .f32 := win1_2.stage (cfg1.slots t 2)
abbrev hO (t : Fin cfg1.N) : (mO t).IsWhole := hstage1_2 ((cfg1.slots t 2).cast nbuf1_2)
/-- The accumulator: a whole scoped buffer of the kernel's own. -/
abbrev accM : Memref sig .tc .vmem S1024x1024 .f32 := Memref.whole cc1_scratch0
abbrev accView : View sig .tc .vmem S1024x1024 .f32 := accM.view

/-! ## The scoped buffers the region does not stage -/

/-- The first pallas_call's six staging buffers at anything, beside `S` (what is said of the accumulator). -/
def scopedWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S)

/-- The region's invariant with nothing said of the accumulator: those buffers, the accumulator at anything, and the
    generator register at some state. -/
theorem plain_eq (c : Dev nD) :
    (Pipeline.ΦA spec1 c : sProp 𝕄)
      = iprop(scopedWith c (iprop(∃ d, owns (c : Thread nD τ) accM fullShare d)) ∗ (∃ r, prngReg c r)) := by
  unfold Pipeline.ΦA scopedWith; rw [scopedRest1_eq]; simp only [accM, owns_whole]; try rfl

end Cert.KernelIdeal.Mm

end
-- ==== Proof.MatmulRuns.lean ====
/-
  The body of the blocked matrix product run once in each of its three cases — k = 0 (the accumulator is cleared, then
  the blocks' product added; nothing goes to the result), 0 < k < 3 (the product is added to what the point before
  left), k = 3 (the same, and the accumulator is then copied into the result's buffer) — on whole memrefs: the inputs
  are handed back as found, and what the stores leave in the accumulator and in the result's buffer is a list of
  pieces, last first, which the run itself finds.
-/
import proofs.«135212_j5093831213493_2_alg».proof.Proof.MatmulShared
set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- k = 0. The result's buffer, at `xi`, comes back untouched; the accumulator, at anything, ends at the pieces `LS`. -/
noncomputable def runFirst (c : Dev nD) (i : grid1.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : isFirst i) (hc1 : ¬isLast i)
    (x0 : Vec F S1024x1024 .f32) (x1 : Vec F S1024x1024 .bf16) :
    Σ' (LO : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) a3 fullShare x0 ∗ owns (c : Thread nD τ) a4 fullShare x1 ∗ owns (c : Thread nD τ) a5 fullShare xi ∗ (∃ d, owns (c : Thread nD τ) a6 fullShare d)
            ∗ (iprop(owns (c : Thread nD τ) a3 fullShare x0 ∗ owns (c : Thread nD τ) a4 fullShare x1 ∗ owns (c : Thread nD τ) a5 fullShare xi ∗ (∃ f, a6.view.loc (c : Thread nD τ) ↦[a6.view.set]{fullShare} a6.view.writes (Elt F) f LS)) -∗ K ⟨⟩))
          ⊢ wp frame (wpE (defs₀ (F := F)) Variants.none c none) E (cc1__matmul_kernel i a3 h3 a4 h4 a5 h5 a6 h6) K } := by
  refine ⟨[], ?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := h3.eq_unread hf0; obtain rfl := h4.eq_unread hf1; obtain rfl := h5.eq_unread hf2
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    iexists _; iexact HS

set_option maxHeartbeats 1000000 in
/-- 0 < k < 3. The result's buffer comes back untouched; the accumulator, at `xs`, ends at the pieces `LS`. -/
noncomputable def runMid (c : Dev nD) (i : grid1.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬isFirst i) (hc1 : ¬isLast i)
    (x0 : Vec F S1024x1024 .f32) (x1 : Vec F S1024x1024 .bf16) (xs : Vec F S1024x1024 .f32) :
    Σ' (LO : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) a3 fullShare x0 ∗ owns (c : Thread nD τ) a4 fullShare x1 ∗ owns (c : Thread nD τ) a5 fullShare xi ∗ owns (c : Thread nD τ) a6 fullShare xs
            ∗ (iprop(owns (c : Thread nD τ) a3 fullShare x0 ∗ owns (c : Thread nD τ) a4 fullShare x1 ∗ owns (c : Thread nD τ) a5 fullShare xi ∗ (∃ f, a6.view.loc (c : Thread nD τ) ↦[a6.view.set]{fullShare} a6.view.writes (Elt F) f LS)) -∗ K ⟨⟩))
          ⊢ wp frame (wpE (defs₀ (F := F)) Variants.none c none) E (cc1__matmul_kernel i a3 h3 a4 h4 a5 h5 a6 h6) K } := by
  refine ⟨[], ?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := h3.eq_unread hf0; obtain rfl := h4.eq_unread hf1; obtain rfl := h5.eq_unread hf2; obtain rfl := h6.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    iexists _; iexact HS

set_option maxHeartbeats 1000000 in
/-- k = 3. The result's buffer, at anything, ends at the pieces `LO`; the accumulator, at `xs`, at `LS`. -/
noncomputable def runLast (c : Dev nD) (i : grid1.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬isFirst i) (hc1 : isLast i)
    (x0 : Vec F S1024x1024 .f32) (x1 : Vec F S1024x1024 .bf16) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a5 fullShare d) ∗ owns (c : Thread nD τ) a6 fullShare xs
            ∗ (iprop(owns (c : Thread nD τ) a3 fullShare x0 ∗ owns (c : Thread nD τ) a4 fullShare x1 ∗ (∃ f, a5.view.loc (c : Thread nD τ) ↦[a5.view.set]{fullShare} a5.view.writes (Elt F) f LO) ∗ (∃ f, a6.view.loc (c : Thread nD τ) ↦[a6.view.set]{fullShare} a6.view.writes (Elt F) f LS)) -∗ K ⟨⟩))
          ⊢ wp frame (wpE (defs₀ (F := F)) Variants.none c none) E (cc1__matmul_kernel i a3 h3 a4 h4 a5 h5 a6 h6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := h3.eq_unread hf0; obtain rfl := h4.eq_unread hf1; obtain rfl := h6.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    iexists _; iexact HS

end Cert.KernelIdeal.Mm

end
-- ==== Proof.MatmulFrame.lean ====
/-
  The frame of the blocked matrix product: what the accumulator and the result's staging buffer hold after each grid
  point, by recursion on the point's number (at k = 0 the point starts afresh; otherwise it continues from what the
  point before left in the accumulator), the region's invariant (the accumulator at that named contents between
  points), the proof data of the pipeline and the body obligation at every point.
-/
import proofs.«135212_j5093831213493_2_alg».proof.Proof.MatmulRuns
set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a point given by its number -/

theorem first_of (n : ℕ) (hn : n < cfg1.N) (h : n % 4 = 0) : isFirst (grid1.coords ⟨n, hn⟩) := (isFirst_iff ⟨n, hn⟩).mpr h
theorem notFirst_of (n : ℕ) (hn : n < cfg1.N) (h : ¬n % 4 = 0) : ¬isFirst (grid1.coords ⟨n, hn⟩) := fun h' => h ((isFirst_iff ⟨n, hn⟩).mp h')
theorem last_of (n : ℕ) (hn : n < cfg1.N) (h : n % 4 = 3) : isLast (grid1.coords ⟨n, hn⟩) := (isLast_iff ⟨n, hn⟩).mpr h
theorem notLast_of (n : ℕ) (hn : n < cfg1.N) (h : ¬n % 4 = 3) : ¬isLast (grid1.coords ⟨n, hn⟩) := fun h' => h ((isLast_iff ⟨n, hn⟩).mp h')

/-- The body's run at point `n` when k = 0, on the memrefs the pipeline passes and the operands' blocks there. -/
abbrev firstAt (c : Dev nD) (n : ℕ) (hn : n < cfg1.N) (h0 : n % 4 = 0) (h1 : ¬n % 4 = 3) :=
  runFirst (F := F) c (grid1.coords ⟨n, hn⟩) (mL ⟨n, hn⟩) (hL ⟨n, hn⟩) (mR ⟨n, hn⟩) (hR ⟨n, hn⟩) (mO ⟨n, hn⟩) (hO ⟨n, hn⟩) accM (Memref.isWhole_whole _)
    (first_of n hn h0) (notLast_of n hn h1) (blockAt V c 0 ⟨n, hn⟩) (blockAt V c 1 ⟨n, hn⟩)
/-- When 0 < k < 3, from the accumulator's contents `xs`. -/
abbrev midAt (c : Dev nD) (n : ℕ) (hn : n < cfg1.N) (h0 : ¬n % 4 = 0) (h1 : ¬n % 4 = 3) (xs : Vec F S1024x1024 .f32) :=
  runMid (F := F) c (grid1.coords ⟨n, hn⟩) (mL ⟨n, hn⟩) (hL ⟨n, hn⟩) (mR ⟨n, hn⟩) (hR ⟨n, hn⟩) (mO ⟨n, hn⟩) (hO ⟨n, hn⟩) accM (Memref.isWhole_whole _)
    (notFirst_of n hn h0) (notLast_of n hn h1) (blockAt V c 0 ⟨n, hn⟩) (blockAt V c 1 ⟨n, hn⟩) xs
/-- When k = 3, from the accumulator's contents `xs`. -/
abbrev lastAt (c : Dev nD) (n : ℕ) (hn : n < cfg1.N) (h0 : ¬n % 4 = 0) (h1 : n % 4 = 3) (xs : Vec F S1024x1024 .f32) :=
  runLast (F := F) c (grid1.coords ⟨n, hn⟩) (mL ⟨n, hn⟩) (hL ⟨n, hn⟩) (mR ⟨n, hn⟩) (hR ⟨n, hn⟩) (mO ⟨n, hn⟩) (hO ⟨n, hn⟩) accM (Memref.isWhole_whole _)
    (notFirst_of n hn h0) (last_of n hn h1) (blockAt V c 0 ⟨n, hn⟩) (blockAt V c 1 ⟨n, hn⟩) xs

/-- A list of pieces read back as the accumulator's contents, -/
def accOf (L : List (View.Piece (Elt F) S1024x1024 .f32)) : Vec F S1024x1024 .f32 :=
  accView.read (Elt F) (accView.writes (Elt F) accView.junk L)
/-- and as the result buffer's. -/
def outOf (L : List (View.Piece (Elt F) S1024x1024 .f32)) : Vec F S1024x1024 .f32 :=
  outView.read (Elt F) (outView.writes (Elt F) outView.junk L)

/-! ## The pieces cover their buffers -/

theorem accCover_first (c : Dev nD) (n : ℕ) (hn : n < cfg1.N) (h0 : n % 4 = 0) (h1 : ¬n % 4 = 3) (y : S1024x1024.Idx) :
    ∃ pc ∈ (firstAt V c n hn h0 h1).2.1, y ∈ pc.1.set :=
  View.cover_of_tiledL (firstAt V c n hn h0 h1).2.1 S1024x1024.size (by sl_kernel_rfl) y
theorem accCover_mid (c : Dev nD) (n : ℕ) (hn : n < cfg1.N) (h0 : ¬n % 4 = 0) (h1 : ¬n % 4 = 3) (xs : Vec F S1024x1024 .f32) (y : S1024x1024.Idx) :
    ∃ pc ∈ (midAt V c n hn h0 h1 xs).2.1, y ∈ pc.1.set :=
  View.cover_of_tiledL (midAt V c n hn h0 h1 xs).2.1 S1024x1024.size (by sl_kernel_rfl) y
theorem accCover_last (c : Dev nD) (n : ℕ) (hn : n < cfg1.N) (h0 : ¬n % 4 = 0) (h1 : n % 4 = 3) (xs : Vec F S1024x1024 .f32) (y : S1024x1024.Idx) :
    ∃ pc ∈ (lastAt V c n hn h0 h1 xs).2.1, y ∈ pc.1.set :=
  View.cover_of_tiledL (lastAt V c n hn h0 h1 xs).2.1 S1024x1024.size (by sl_kernel_rfl) y
theorem outCover_last (c : Dev nD) (n : ℕ) (hn : n < cfg1.N) (h0 : ¬n % 4 = 0) (h1 : n % 4 = 3) (xs : Vec F S1024x1024 .f32) (y : S1024x1024.Idx) :
    ∃ pc ∈ (lastAt V c n hn h0 h1 xs).1, y ∈ pc.1.set :=
  View.cover_of_tiledL (lastAt V c n hn h0 h1 xs).1 S1024x1024.size (by sl_kernel_rfl) y

/-! ## What the buffers hold after each point -/

/-- After point `n`: (the result's staging buffer, the accumulator). Where k ≠ 3 the first component is a placeholder
    nothing consults: the window is idle there. -/
def stateAt (c : Dev nD) : (n : ℕ) → n < cfg1.N → Vec F S1024x1024 .f32 × Vec F S1024x1024 .f32
  | 0, hn => (outOf (firstAt V c 0 hn (Nat.zero_mod _) (by decide)).1, accOf (firstAt V c 0 hn (Nat.zero_mod _) (by decide)).2.1)
  | n + 1, hn =>
    if h0 : (n + 1) % 4 = 0 then
      (outOf (firstAt V c (n + 1) hn h0 (by omega)).1, accOf (firstAt V c (n + 1) hn h0 (by omega)).2.1)
    else if h1 : (n + 1) % 4 = 3 then
      (outOf (lastAt V c (n + 1) hn h0 h1 (stateAt c n (Nat.lt_of_succ_lt hn)).2).1, accOf (lastAt V c (n + 1) hn h0 h1 (stateAt c n (Nat.lt_of_succ_lt hn)).2).2.1)
    else
      (outOf (midAt V c (n + 1) hn h0 h1 (stateAt c n (Nat.lt_of_succ_lt hn)).2).1, accOf (midAt V c (n + 1) hn h0 h1 (stateAt c n (Nat.lt_of_succ_lt hn)).2).2.1)

theorem stateAt_first (c : Dev nD) (n : ℕ) (hn : n < cfg1.N) (h0 : n % 4 = 0) (h1 : ¬n % 4 = 3) :
    stateAt V c n hn = (outOf (firstAt V c n hn h0 h1).1, accOf (firstAt V c n hn h0 h1).2.1) := by
  cases n with
  | zero => rfl
  | succ n => exact dif_pos h0

theorem stateAt_mid (c : Dev nD) (n : ℕ) (hn : n < cfg1.N) (h0 : ¬n % 4 = 0) (h1 : ¬n % 4 = 3) :
    stateAt V c n hn = (outOf (midAt V c n hn h0 h1 (stateAt V c (n - 1) (Nat.lt_of_le_of_lt (Nat.sub_le _ _) hn)).2).1,
      accOf (midAt V c n hn h0 h1 (stateAt V c (n - 1) (Nat.lt_of_le_of_lt (Nat.sub_le _ _) hn)).2).2.1) := by
  cases n with
  | zero => exact absurd (Nat.zero_mod _) h0
  | succ n => exact (dif_neg h0).trans ((dif_neg h1).trans rfl)

theorem stateAt_last (c : Dev nD) (n : ℕ) (hn : n < cfg1.N) (h0 : ¬n % 4 = 0) (h1 : n % 4 = 3) :
    stateAt V c n hn = (outOf (lastAt V c n hn h0 h1 (stateAt V c (n - 1) (Nat.lt_of_le_of_lt (Nat.sub_le _ _) hn)).2).1,
      accOf (lastAt V c n hn h0 h1 (stateAt V c (n - 1) (Nat.lt_of_le_of_lt (Nat.sub_le _ _) hn)).2).2.1) := by
  cases n with
  | zero => exact absurd (Nat.zero_mod _) h0
  | succ n => exact (dif_neg h0).trans ((dif_pos h1).trans rfl)

/-! ## The invariant -/

/-- Before point `n`: at the start nothing is said of the accumulator; later it holds what point `n - 1` left. -/
def PhiAcc (c : Dev nD) : (n : ℕ) → n ≤ cfg1.N → sProp 𝕄
  | 0, _ => Pipeline.ΦA spec1 c
  | n + 1, hn => iprop(scopedWith c (owns (c : Thread nD τ) accM fullShare (stateAt V c n hn).2) ∗ (∃ r, prngReg c r))

theorem PhiAcc_zero (c : Dev nD) (n : ℕ) (h : n ≤ cfg1.N) (hz : n = 0) : PhiAcc V c n h = Pipeline.ΦA spec1 c := by
  subst hz; rfl
theorem PhiAcc_succ (c : Dev nD) (n : ℕ) (hn : n < cfg1.N) :
    PhiAcc V c (n + 1) hn = iprop(scopedWith c (owns (c : Thread nD τ) accM fullShare (stateAt V c n hn).2) ∗ (∃ r, prngReg c r)) := rfl
theorem PhiAcc_pos (c : Dev nD) (n : ℕ) (h : n ≤ cfg1.N) (hz : n ≠ 0) :
    PhiAcc V c n h = iprop(scopedWith c (owns (c : Thread nD τ) accM fullShare (stateAt V c (n - 1) (by omega)).2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => (stateAt V c t.val t.isLt).1
  Φ t := PhiAcc V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi_castSucc (c : Dev nD) (t : Fin cfg1.N) :
    (dat1 V c).Φ t.castSucc = PhiAcc V c t.val (Nat.le_of_lt t.isLt) := by
  dsimp only [dat1]; simp only [Fin.coe_castSucc]
theorem after_left (c : Dev nD) (t : Fin cfg1.N) : (dat1 V c).after 0 t = blockAt V c 0 t := by dsimp only [dat1]
theorem after_right (c : Dev nD) (t : Fin cfg1.N) : (dat1 V c).after 1 t = blockAt V c 1 t := by dsimp only [dat1]
theorem after_out (c : Dev nD) (t : Fin cfg1.N) : (dat1 V c).after 2 t = (stateAt V c t.val t.isLt).1 := by dsimp only [dat1]
theorem before_left (c : Dev nD) (t : Fin cfg1.N) (d) : (dat1 V c).before 0 t d = blockAt V c 0 t :=
  before_left_of V (dat1 V c) (A_eq1 V c 0) (after_left V c) t d
theorem before_right (c : Dev nD) (t : Fin cfg1.N) (d) : (dat1 V c).before 1 t d = blockAt V c 1 t :=
  before_right_of V (dat1 V c) (A_eq1 V c 1) (after_right V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (mL t) fullShare ((dat1 V c).before 0 t d))
    ∗ (∃ d, owns (c : Thread nD τ) (mR t) fullShare ((dat1 V c).before 1 t d))
    ∗ (∃ d, owns (c : Thread nD τ) (mO t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves_left (c : Dev nD) (t : Fin cfg1.N) :
    (dat1 V c).leavesExact 0 t = owns (c : Thread nD τ) (mL t) fullShare (blockAt V c 0 t) := by
  unfold Dat.leavesExact; rw [live_left t, after_left]
theorem leaves_right (c : Dev nD) (t : Fin cfg1.N) :
    (dat1 V c).leavesExact 1 t = owns (c : Thread nD τ) (mR t) fullShare (blockAt V c 1 t) := by
  unfold Dat.leavesExact; rw [live_right t, after_right]

set_option maxHeartbeats 4800000 in
/-- The body at any point: the operands' memrefs hold their blocks; the point's number mod 4 says which case it is in;
    the invariant hands the body the accumulator (at anything before the first point, otherwise at what the point before
    left) and takes it back at this point's contents; where k ≠ 3 the result's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before_left, before_right]
  rw [show (dat1 V c).owesAt () t.succ = (dat1 V c).owesAt () t.castSucc from rfl]
  rw [show (dat1 V c).Φ t.succ = PhiAcc V c (t.val + 1) t.isLt from rfl, PhiAcc_succ, leaves_left, leaves_right]
  have hN : t.val < 64 := lt_of_lt_of_eq t.isLt (show cfg1.N = 64 from N_1)
  by_cases h0 : t.val % 4 = 0
  · have h1 : ¬t.val % 4 = 3 := by omega
    rw [Dat.leavesExact_idle (dat1 V c) 2 t (idle_out t (notLast_of t.val t.isLt h1)) (noFlush_out t (notLast_of t.val t.isLt h1))]
    rw [stateAt_first V c t.val t.isLt h0 h1]
    (try dsimp only)
    by_cases hz : t.val = 0
    · rw [Phi_castSucc V c t, PhiAcc_zero V c _ _ hz, plain_eq]
      unfold scopedWith
      iintro ⟨⟨⟨A0, A1, A2, A3, A4, A5, HS⟩, Hg⟩, Ho, ⟨%d0, H0⟩, ⟨%d1, H1⟩, ⟨%d2, H2⟩⟩
      iapply ((firstAt V c t.val t.isLt h0 h1).2.2 _ Set.univ _)
      isplitl [H0]; · iexact H0
      isplitl [H1]; · iexact H1
      isplitl [H2]; · iexact H2
      isplitl [HS]; · iexact HS
      iintro ⟨H0, H1, H2, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold accOf owns; iexists _; isplitr
          swap; · iexact HS
          ipureintro; exact View.read_writes_of_cover _ _ _ _ _ (accCover_first V c t.val t.isLt h0 h1)
        iexact Hg
      isplitl [Ho]; · iexact Ho
      isplitl [H0]; · iexact H0
      isplitl [H1]; · iexact H1
      iexists _; iexact H2
    · rw [Phi_castSucc V c t, PhiAcc_pos V c _ _ hz]
      unfold scopedWith
      iintro ⟨⟨⟨A0, A1, A2, A3, A4, A5, HS⟩, Hg⟩, Ho, ⟨%d0, H0⟩, ⟨%d1, H1⟩, ⟨%d2, H2⟩⟩
      iapply ((firstAt V c t.val t.isLt h0 h1).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold accOf owns; iexists _; isplitr
          swap; · iexact HS
          ipureintro; exact View.read_writes_of_cover _ _ _ _ _ (accCover_first V c t.val t.isLt h0 h1)
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat1 V c).leavesExact 2 t = owns (c : Thread nD τ) (mO t) fullShare ((dat1 V c).after 2 t) from by
        unfold Dat.leavesExact; rw [live_out t (last_of t.val t.isLt h1)], after_out]
      rw [stateAt_last V c t.val t.isLt h0 h1]
      (try dsimp only)
      rw [Phi_castSucc V c t, PhiAcc_pos V c _ _ hz]
      unfold scopedWith
      iintro ⟨⟨⟨A0, A1, A2, A3, A4, A5, HS⟩, Hg⟩, Ho, ⟨%d0, H0⟩, ⟨%d1, H1⟩, ⟨%d2, H2⟩⟩
      iapply ((lastAt V c t.val t.isLt h0 h1 _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold accOf owns; iexists _; isplitr
          swap; · iexact HS
          ipureintro; exact View.read_writes_of_cover _ _ _ _ _ (accCover_last V c t.val t.isLt h0 h1 _)
        iexact Hg
      isplitl [Ho]; · iexact Ho
      isplitl [H0]; · iexact H0
      isplitl [H1]; · iexact H1
      unfold outOf owns; iexists _; isplitr
      swap; · iexact H2
      ipureintro; exact View.read_writes_of_cover _ _ _ _ _ (outCover_last V c t.val t.isLt h0 h1 _)
    · rw [Dat.leavesExact_idle (dat1 V c) 2 t (idle_out t (notLast_of t.val t.isLt h1)) (noFlush_out t (notLast_of t.val t.isLt h1))]
      rw [stateAt_mid V c t.val t.isLt h0 h1]
      (try dsimp only)
      rw [Phi_castSucc V c t, PhiAcc_pos V c _ _ hz]
      unfold scopedWith
      iintro ⟨⟨⟨A0, A1, A2, A3, A4, A5, HS⟩, Hg⟩, Ho, ⟨%d0, H0⟩, ⟨%d1, H1⟩, ⟨%d2, H2⟩⟩
      iapply ((midAt V c t.val t.isLt h0 h1 _).2.2 _ Set.univ _)
      isplitl [H0]; · iexact H0
      isplitl [H1]; · iexact H1
      isplitl [H2]; · iexact H2
      isplitl [HS]; · iexact HS
      iintro ⟨H0, H1, H2, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold accOf owns; iexists _; isplitr
          swap; · iexact HS
          ipureintro; exact View.read_writes_of_cover _ _ _ _ _ (accCover_mid V c t.val t.isLt h0 h1 _)
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

theorem inv_in (c : Dev nD) : Pipeline.ΦA spec1 c ⊢ (dat1 V c).Φ 0 := by
  rw [show (dat1 V c).Φ 0 = PhiAcc V c 0 (Nat.zero_le _) from rfl, PhiAcc_zero V c 0 _ rfl]
  try exact Idealize.SL.BI.Entails.refl _

/-- After the last point the accumulator's named contents are forgotten. -/
theorem inv_out (c : Dev nD) : (dat1 V c).Φ (Fin.last cfg1.N) ⊢ Pipeline.ΦA spec1 c := by
  rw [show (dat1 V c).Φ (Fin.last cfg1.N) = PhiAcc V c (Fin.last cfg1.N).val (Nat.le_of_lt_succ (Fin.last cfg1.N).isLt) from rfl,
    PhiAcc_pos V c _ _ (by rw [Fin.val_last]; have : cfg1.N = 64 := N_1; omega), plain_eq]
  unfold scopedWith
  iintro ⟨⟨A0, A1, A2, A3, A4, A5, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    iexists _; iexact HS
  iexact Hg

end Cert.KernelIdeal.Mm

end
-- ==== Proof.KernelRun.lean ====
/-
  The whole program as four items — the dequantising region, the two reshapes, the blocked matrix product, the last
  reshape — run from the launch memory: the unscoped buffers' contents at each boundary (a fold: a region replaces its
  arrays by what its write-backs leave, a stretch of host operations applies them), each region as a segment between
  two such boundaries, and the run: every weakly fair execution ends with every unscoped buffer at the last boundary's
  contents. Read at the arguments this is the frame; read at the result it is the kernel's value.
-/
import proofs.«135212_j5093831213493_2_alg».proof.Proof.DequantFrame
import proofs.«135212_j5093831213493_2_alg».proof.Proof.MatmulFrame
import proofs.«135212_j5093831213493_2_alg».proof.Proof.Gen.KernelIdeal.Regions

set_option maxRecDepth 16384

noncomputable section

namespace Cert.KernelIdeal.Both

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
abbrev B0 : (c : Dev nD) → (b : Ref sig .tc) → Buf (Elt F) ((c : Thread nD τ).loc b) := fun c b => W0 m c b
/-- After the dequantising region: its arrays at what its write-backs leave, the rest as entered. -/
def W1 (c : Dev nD) : Valuation τ sig (Elt F) :=
  Pipeline.withArrays spec0 c (W0 m c) fun w => (Deq.dat0 (B0 m) c).arrAt w cfg0.N
theorem W1_arr (c : Dev nD) (w : Fin cfg0.W) :
    W1 m c (Proc.devRef .tc (Pipeline.arrRef spec0 w)) = (Deq.dat0 (B0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev B1 : (c : Dev nD) → (b : Ref sig .tc) → Buf (Elt F) ((c : Thread nD τ).loc b) := fun c b => W1 m c b
theorem exit0_arr (c : Dev nD) (w : Fin cfg0.W) : (Deq.dat0 (B0 m) c).arrAt w cfg0.N = B1 m c (Pipeline.arrRef spec0 w) :=
  (W1_arr m c w).symm
theorem exit0_rest (c : Dev nD) : ∀ b, b ∉ Finset.univ.image (Pipeline.arrRef spec0) → B1 m c b = B0 m c b :=
  fun b hb => W1_of_ne m c b fun w e => hb (Finset.mem_image.mpr ⟨w, Finset.mem_univ _, e⟩)

/-- After the two reshapes. -/
abbrev W2 : Dev nD → Valuation τ sig (Elt F) := fun c => StableHlo.after hostOps1 (W1 m c)
abbrev B2 : (c : Dev nD) → (b : Ref sig .tc) → Buf (Elt F) ((c : Thread nD τ).loc b) := fun c b => W2 m c b
/-- After the matrix product. -/
def W3 (c : Dev nD) : Valuation τ sig (Elt F) :=
  Pipeline.withArrays spec1 c (W2 m c) fun w => (Mm.dat1 (B2 m) c).arrAt w cfg1.N
theorem W3_arr (c : Dev nD) (w : Fin cfg1.W) :
    W3 m c (Proc.devRef .tc (Pipeline.arrRef spec1 w)) = (Mm.dat1 (B2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev B3 : (c : Dev nD) → (b : Ref sig .tc) → Buf (Elt F) ((c : Thread nD τ).loc b) := fun c b => W3 m c b
theorem exit1_arr (c : Dev nD) (w : Fin cfg1.W) : (Mm.dat1 (B2 m) c).arrAt w cfg1.N = B3 m c (Pipeline.arrRef spec1 w) :=
  (W3_arr m c w).symm
theorem exit1_rest (c : Dev nD) : ∀ b, b ∉ Finset.univ.image (Pipeline.arrRef spec1) → B3 m c b = B2 m c b :=
  fun b hb => W3_of_ne m c b fun w e => hb (Finset.mem_image.mpr ⟨w, Finset.mem_univ _, e⟩)
/-- After the last reshape. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := (W1_arr m c 0).trans (((Deq.dat0 (B0 m) c).arrAt_in 0 rfl _).trans (Deq.A_eq0 (B0 m) c 0))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := (W1_arr m c 1).trans (((Deq.dat0 (B0 m) c).arrAt_in 1 rfl _).trans (Deq.A_eq0 (B0 m) c 1))
    _ = m ((c : Thread nD τ).loc main_arg2) := rfl

/-! ## The proof data of both pipelines and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Deq.dat0 (B0 m) c
  | ⟨1, _⟩ => fun c => Mm.dat1 (B2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W4 m c)
/-- At the end the generator register's state is let go; what is left beside the buffers is that nothing is owed. -/
theorem rest_end (c : Dev nD) : (R (F := F) c) ⊢ (iprop(∃ W, owes (c : Thread nD τ) (0 : CellTallies nD τ sig Unit) W) : sProp 𝕄) := by
  iintro ⟨-, Ho⟩; iexact Ho

/-! ## The regions as segments -/

set_option backward.isDefEq.respectTransparency.types false in
/-- The dequantising region: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Deq.body_obligation0 (B0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (B0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B0 m c) (B1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix product: entered from every unscoped buffer at `W2`, left at `W3`; its invariant starts and ends with
    nothing said of the accumulator. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Mm.body_obligation1 (B2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (B2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Mm.inv_in (B2 m) c
    unfold Pipeline.ΦA at h
    rw [show (pdats m 1 c).Φ 0 = (Mm.dat1 (B2 m) c).Φ 0 from rfl]
    iintro ⟨Hp, -, Hr⟩
    iapply h
    isplitl [Hr]; · iexact Hr
    iexact Hp
  hout c := by
    have h := Mm.inv_out (B2 m) c
    unfold Pipeline.ΦA at h
    rw [Pipeline.ownSems0_none, show (pdats m 1 c).Φ (Fin.last _) = (Mm.dat1 (B2 m) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B2 m c) (B3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

abbrev items : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (items m) := (main_chain c).trans (by chain_rfl)

set_option backward.isDefEq.respectTransparency.types false in
/-- THE RUN: from any memory with zero counters every weakly fair execution terminates, nothing faulting, with the
    result buffer at the last boundary's contents and the three arguments as launched. -/
theorem run : θ_run defs (onTc (τ := τ) (main (F := F))) ⟨m, fun _ => 0, ρ⟩ (fun r => ∀ c : Dev nD,
      r.2.mem ((c.tc : Thread nD τ).loc main_v4) = W4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W4 m c))
    (hch := ⟨fun _ => .rfl, fun _ => .rfl, fun _ => .rfl, fun _ => .rfl, fun c => sep_mono .rfl (rest_end c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      unfold StableHlo.held
      iintro ⟨Hh, HSI⟩
      imodintro
      iapply (pointsTo_read_all (Pipeline.ucRefs τ sig) (fun b => (((c : Thread nD τ)).1, b)) (W4 m c) s')
      isplitl [Hh] <;> iassumption)
    (hQ := fun s h c =>
      ⟨h c _ (mem_uc main_v4 (by decide)),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.KernelIdeal.Both

end
-- ==== Proof.Spec.lean ====
/-
  What both programs compute, as functions of the three argument arrays over the extended reals.
  The weight matrix is stored quantised: entry (o, b, j) of the weight is scales (o, b) · (float (codes (o, b, j)) − 128);
  flattened, column 32·b + j of row o. The result at (s, t, o) is the inner product of row (s, t) of x with row o of the
  flattened weight: a sum of 4096 products.
-/
import Idealize.ShloMosaic.PureOps.Ideal
import Idealize.ShloMosaic.Lib.ValueIdx

noncomputable section

namespace Cert.Spec

open Idealize.ShloMosaic

abbrev SX : Shape := ⟨3, ![2, 2048, 4096]⟩
abbrev SS : Shape := ⟨2, ![4096, 128]⟩
abbrev SC : Shape := ⟨3, ![4096, 128, 32]⟩
abbrev SM : Shape := ⟨2, ![4096, 4096]⟩

/-- Entry (o, b, j) of the dequantised weight: scales (o, b) · (float (codes (o, b, j)) − 128). -/
def weight (sc : SS.Idx → EReal) (cd : SC.Idx → BitVec 32) : SC.Idx → EReal := fun i =>
  FloatOps.mulf (F := Ideal) (φ := .f32) (sc (ValueIdx.ix2 (⟨(i 0).val, (i 0).isLt⟩ : Fin 4096) (⟨(i 1).val, (i 1).isLt⟩ : Fin 128)))
    (FloatOps.subf (F := Ideal) (φ := .f32) (FloatOps.sitofp (F := Ideal) .f32 (cd i)) (FloatOps.ofBits (F := Ideal) .f32 0x43000000#32))

/-- The weight as a 4096 × 4096 matrix: column c of row o is entry (o, c / 32, c mod 32). -/
def flat (w : SC.Idx → EReal) : SM.Idx → EReal := fun i =>
  w (ValueIdx.ix3 (⟨(i 0).val, (i 0).isLt⟩ : Fin 4096) (⟨(i 1).val / 32, by have h : (i 1).val < 4096 := (i 1).isLt; show (i 1).val / 32 < 128; omega⟩ : Fin 128)
    (⟨(i 1).val % 32, Nat.mod_lt _ (by decide)⟩ : Fin 32))

/-- The linear layer: y (s, t, o) = Σ_k x (s, t, k) · w (o, k). -/
def G (x : SX.Idx → EReal) (w : SM.Idx → EReal) : SX.Idx → EReal := fun i =>
  ∑ k : Fin 4096, x (ValueIdx.ix3 (⟨(i 0).val, (i 0).isLt⟩ : Fin 2) (⟨(i 1).val, (i 1).isLt⟩ : Fin 2048) k)
    * w (ValueIdx.ix2 (⟨(i 2).val, (i 2).isLt⟩ : Fin 4096) k)

end Cert.Spec

end
-- ==== Proof.DequantValue.lean ====
/- Region 0 (the dequantise pallas_call) read as values at the ideal interpretation: the body's payload at an
   index, what each grid point writes back as a block of ONE whole-array function of the two input arrays, the cover of
   the output array by the 64 row blocks, and the array after the region. -/
import proofs.«135212_j5093831213493_2_alg».proof.Proof.DequantFrame
import proofs.«135212_j5093831213493_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Deq

open Cert.KernelIdeal Cert.KernelIdeal.Gen Idealize.ShloMosaic Idealize.ShloMosaic.TcCoe Idealize.SL.Sem
open Idealize.ShloMosaic.Pipeline (Dat)
open Idealize.ShloMosaic.ValueIdx
open Cert.Spec (weight)

/-! ## Two layout operations read at an index -/

section Layout
variable {α : Type}

/-- An [a, b] array cast to [a, b, 1] reads, at (i, j, u), the operand at (i, j): the two row-major positions agree. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## The body's payload at an index -/

/-- At (p, q, r) the payload is the scale at (p, q) times (the code at (p, q, r) as a float, minus 128): the pointwise
    operations read at the index, the appended unit axis and its repetition along the last axis by the two lemmas above;
    the truncation is the identity on ideal values. -/
theorem pay_apply (x1 : Vec Ideal S64x128x32 .i32) (x0 : Vec Ideal S64x128 .f32) (p : Fin 64) (q : Fin 128) (r : Fin 32) :
    k0_pay1 x1 x0 (ix3 p q r) = FloatOps.mulf (F := Ideal) (x0 (ix2 p q)) (FloatOps.subf (F := Ideal) (FloatOps.sitofp (F := Ideal) .f32 (x1 (ix3 p q r))) (FloatOps.ofBits (F := Ideal) .f32 0x43000000#32)) := by
  have e : broadcastTo S64x128x32 (shapeCast S64x128x1 x0 shapeCasts_S64x128_S64x128x1) broadcasts_S64x128x1_S64x128x32 (ix3 p q r) = x0 (ix2 p q) :=
    (broadcastTo_ab1_abc_apply _ broadcasts_S64x128x1_S64x128x32 p q r).trans (shapeCast_ab_ab1_apply x0 shapeCasts_S64x128_S64x128x1 p q 0)
  unfold k0_pay1
  exact congrArg (fun z => FloatOps.mulf (F := Ideal) z (FloatOps.subf (F := Ideal) (FloatOps.sitofp (F := Ideal) .f32 (x1 (ix3 p q r))) (FloatOps.ofBits (F := Ideal) .f32 0x43000000#32))) e

/-- The same at any index of the block. -/
theorem pay_at (x1 : Vec Ideal S64x128x32 .i32) (x0 : Vec Ideal S64x128 .f32) (j : S64x128x32.Idx) :
    k0_pay1 x1 x0 j = FloatOps.mulf (F := Ideal) (x0 (ix2 (j 0) (j 1))) (FloatOps.subf (F := Ideal) (FloatOps.sitofp (F := Ideal) .f32 (x1 j)) (FloatOps.ofBits (F := Ideal) .f32 0x43000000#32)) := by
  obtain ⟨p, q, r, rfl⟩ : ∃ (p : Fin 64) (q : Fin 128) (r : Fin 32), j = ix3 p q r := ⟨j 0, j 1, j 2, eq_ix3 j⟩
  exact pay_apply x1 x0 p q r

/-! ## From blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: at point t every window is on row block t and on block 0 of its
    other axes. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The scales' block at point t is rows 64t … 64t + 63 of the scales. -/
theorem iblk0_0_apply (c : Dev nD) (t : Fin cfg0.N) (y : S64x128.Idx) (k : S4096x128.Idx)
    (hk0 : (k 0).val = t.val * 64 + (y 0).val) (hk1 : (k 1).val = (y 1).val) :
    (iblk0 V c 0 t : Vec Ideal S64x128 .f32) y = (V c main_arg1 : S4096x128.Idx → EReal) k := by
  obtain ⟨e0, e1, -⟩ := idx_facts t
  show V c main_arg1 (((cfg0.win 0).blk t).view.emb y) = V c main_arg1 k
  congr 1
  funext a
  apply Fin.ext
  match a with
  | ⟨0, _⟩ => show win0_0.index t (0 : Fin 2) * 64 + 1 * (y 0).val = (k 0).val; rw [e0, hk0]; omega
  | ⟨1, _⟩ => show win0_0.index t (1 : Fin 2) * 128 + 1 * (y 1).val = (k 1).val; rw [e1, hk1]; omega

/-- The codes' block at point t is rows 64t … 64t + 63 of the codes. -/
theorem iblk0_1_apply (c : Dev nD) (t : Fin cfg0.N) (y : S64x128x32.Idx) (k : S4096x128x32.Idx)
    (hk0 : (k 0).val = t.val * 64 + (y 0).val) (hk1 : (k 1).val = (y 1).val) (hk2 : (k 2).val = (y 2).val) :
    (iblk0 V c 1 t : Vec Ideal S64x128x32 .i32) y = (V c main_arg2 : S4096x128x32.Idx → BitVec 32) k := by
  obtain ⟨-, -, e0, e1, e2, -⟩ := idx_facts t
  show V c main_arg2 (((cfg0.win 1).blk t).view.emb y) = V c main_arg2 k
  congr 1
  funext a
  apply Fin.ext
  match a with
  | ⟨0, _⟩ => show win0_1.index t (0 : Fin 3) * 64 + 1 * (y 0).val = (k 0).val; rw [e0, hk0]; omega
  | ⟨1, _⟩ => show win0_1.index t (1 : Fin 3) * 128 + 1 * (y 1).val = (k 1).val; rw [e1, hk1]; omega
  | ⟨2, _⟩ => show win0_1.index t (2 : Fin 3) * 32 + 1 * (y 2).val = (k 2).val; rw [e2, hk2]; omega

/-- The payload of the two blocks of point t at block index j is the dequantised weight at row 64t + j 0. -/
theorem point_eq (c : Dev nD) (t : Fin cfg0.N) (j : S64x128x32.Idx) (i : S4096x128x32.Idx)
    (h0 : (i 0).val = t.val * 64 + (j 0).val) (h1 : (i 1).val = (j 1).val) (h2 : (i 2).val = (j 2).val) :
    k0_pay1 (iblk0 V c 1 t) (iblk0 V c 0 t) j = weight (V c main_arg1) (V c main_arg2) i := by
  have e0 := iblk0_0_apply V c t (ix2 (j 0) (j 1)) (ix2 ⟨(i 0).val, (i 0).isLt⟩ ⟨(i 1).val, (i 1).isLt⟩) h0 h1
  have e1 := iblk0_1_apply V c t j i h0 h1 h2
  refine (pay_at _ _ j).trans ?_
  unfold weight
  exact congrArg₂ (FloatOps.mulf (F := Ideal)) e0
    (congrArg (fun z => FloatOps.subf (F := Ideal) (FloatOps.sitofp (F := Ideal) .f32 z) (FloatOps.ofBits (F := Ideal) .f32 0x43000000#32)) e1)

/-- What point t writes back is block t of the dequantised weight of the arrays as the region finds them. -/
theorem flushed_eq (c : Dev nD) (t : Fin cfg0.N) :
    (dat0 (F := Ideal) V c).flushed 2 t = ((cfg0.win 2).blk t).view.read (Elt Ideal) (weight (V c main_arg1) (V c main_arg2)) := by
  show (cfg0.win 2).cut (grid0.coords t) ((dat0 (F := Ideal) V c).after 2 t) = _
  rw [after0_2]
  unfold out0_2
  rw [View.canon_unit_zero hz3]
  simp only [View.ld_unit_zero (S := S64x128x32) hz3, View.ld_unit_zero (S := S64x128) hz2]
  obtain ⟨-, -, -, -, -, e0, e1, e2⟩ := idx_facts t
  funext j
  show k0_pay1 (iblk0 V c 1 t) (iblk0 V c 0 t) j = weight (V c main_arg1) (V c main_arg2) (((cfg0.win 2).blk t).view.emb j)
  refine point_eq V c t j _ ?_ ?_ ?_
  · show win0_2.index t (0 : Fin 3) * 64 + 1 * (j 0).val = t.val * 64 + (j 0).val; rw [e0]; omega
  · show win0_2.index t (1 : Fin 3) * 128 + 1 * (j 1).val = (j 1).val; rw [e1]; omega
  · show win0_2.index t (2 : Fin 3) * 32 + 1 * (j 2).val = (j 2).val; rw [e2]; omega

/-- An index of the array is in point t's block iff each coordinate is in the block's range on its axis. -/
theorem mem_blk (t : Fin cfg0.N) (i : S4096x128x32.Idx) :
    i ∈ ((cfg0.win 2).blk t).view.set ↔ ∀ a : Fin 3, win0_2.index t a * S64x128x32.size a ≤ (i a).val ∧ (i a).val < win0_2.index t a * S64x128x32.size a + S64x128x32.size a := by
  show i ∈ ((View.whole main_v0).slice (win0_2.rect t)).set ↔ _
  rw [View.set_slice_whole, Rect.mem_set_unit]
  exact Iff.rfl

/-- Every index of the output array is in some point's block: row o is in the block of point o / 64. -/
theorem cover (i : S4096x128x32.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  have hi2 : (i 2).val < 32 := (i 2).isLt
  obtain ⟨t, ht⟩ : ∃ t : Fin cfg0.N, t.val = (i 0).val / 64 :=
    ⟨⟨(i 0).val / 64, by rw [show cfg0.N = 64 from N_0]; omega⟩, rfl⟩
  obtain ⟨-, -, -, -, -, e0, e1, e2⟩ := idx_facts t
  refine ⟨t, flush0_2 t, ?_⟩
  rw [mem_blk]
  intro a
  match a with
  | ⟨0, _⟩ => show win0_2.index t (0 : Fin 3) * 64 ≤ (i 0).val ∧ (i 0).val < win0_2.index t (0 : Fin 3) * 64 + 64; rw [e0, ht]; omega
  | ⟨1, _⟩ => show win0_2.index t (1 : Fin 3) * 128 ≤ (i 1).val ∧ (i 1).val < win0_2.index t (1 : Fin 3) * 128 + 128; rw [e1]; omega
  | ⟨2, _⟩ => show win0_2.index t (2 : Fin 3) * 32 ≤ (i 2).val ∧ (i 2).val < win0_2.index t (2 : Fin 3) * 32 + 32; rw [e2]; omega

/-- The output array after the region is the dequantised weight of the scales and the codes as the region finds them. -/
theorem final0 (V : (c : Dev nD) → (b : Ref sig .tc) → Buf (Elt Ideal) ((c : Thread nD τ).loc b)) (c : Dev nD) :
    (dat0 (F := Ideal) V c).arrAt 2 cfg0.N = weight (V c main_arg1) (V c main_arg2) :=
  (dat0 (F := Ideal) V c).arrAt_eq_of_cover 2 (weight (V c main_arg1) (V c main_arg2)) (fun t _ => flushed_eq V c t) cover

end Cert.KernelIdeal.Deq

end
-- ==== Proof.MatmulPieces.lean ====
/-
  What each case of the blocked matrix product leaves behind, as ONE term: with p (x, w, a) the body's arithmetic
  (a + x · wᵀ, the payload of its one accumulating store) and z the cleared accumulator, the accumulator after a point
  with k = 0 is p (x, w, z), after any other point p (x, w, a) for the contents a it found; and at k = 3 the result's
  buffer receives that same value.
-/
import proofs.«135212_j5093831213493_2_alg».proof.Proof.MatmulFrame
import Idealize.ShloMosaic.Lib.Pipeline.Value
set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem origin2 : (![0, 0] : Fin S1024x1024.rank → Nat) = fun _ => 0 := by funext a; fin_cases a <;> rfl

theorem acc_first (c : Dev nD) (n : ℕ) (hn : n < cfg1.N) (h0 : n % 4 = 0) (h1 : ¬n % 4 = 3) :
    accOf (firstAt V c n hn h0 h1).2.1 = k1_pay2 (blockAt V c 0 ⟨n, hn⟩) (blockAt V c 1 ⟨n, hn⟩) (k1_pay1 (F := F)) := by
  unfold accOf
  rw [View.read_writes_eq_canon _ _ _ (accCover_first V c n hn h0 h1)]
  unfold firstAt runFirst
  dsimp only
  sl_unfold_words
  rw [View.canon_cons_unit_zero origin2]
  simp only [View.readAt_eq_ld, Memref.IsWhole.read_unread, View.ld_unit_zero (S := S1024x1024) origin2]
  exact congrArg _ (View.readCov_unit_zero (S := S1024x1024) _ origin2 _ _)

theorem acc_mid (c : Dev nD) (n : ℕ) (hn : n < cfg1.N) (h0 : ¬n % 4 = 0) (h1 : ¬n % 4 = 3) (xs : Vec F S1024x1024 .f32) :
    accOf (midAt V c n hn h0 h1 xs).2.1 = k1_pay2 (blockAt V c 0 ⟨n, hn⟩) (blockAt V c 1 ⟨n, hn⟩) xs := by
  unfold accOf
  rw [View.read_writes_eq_canon _ _ _ (accCover_mid V c n hn h0 h1 xs)]
  unfold midAt runMid
  dsimp only
  sl_unfold_words
  rw [View.canon_unit_zero origin2]
  simp only [View.readAt_eq_ld, Memref.IsWhole.read_unread, View.ld_unit_zero (S := S1024x1024) origin2]
  exact congrArg _ (Memref.IsWhole.read_unread _ xs)

theorem acc_last (c : Dev nD) (n : ℕ) (hn : n < cfg1.N) (h0 : ¬n % 4 = 0) (h1 : n % 4 = 3) (xs : Vec F S1024x1024 .f32) :
    accOf (lastAt V c n hn h0 h1 xs).2.1 = k1_pay2 (blockAt V c 0 ⟨n, hn⟩) (blockAt V c 1 ⟨n, hn⟩) xs := by
  unfold accOf
  rw [View.read_writes_eq_canon _ _ _ (accCover_last V c n hn h0 h1 xs)]
  unfold lastAt runLast
  dsimp only
  sl_unfold_words
  rw [View.canon_unit_zero origin2]
  simp only [View.readAt_eq_ld, Memref.IsWhole.read_unread, View.ld_unit_zero (S := S1024x1024) origin2]
  exact congrArg _ (Memref.IsWhole.read_unread _ xs)

theorem out_last (c : Dev nD) (n : ℕ) (hn : n < cfg1.N) (h0 : ¬n % 4 = 0) (h1 : n % 4 = 3) (xs : Vec F S1024x1024 .f32) :
    outOf (lastAt V c n hn h0 h1 xs).1 = k1_pay2 (blockAt V c 0 ⟨n, hn⟩) (blockAt V c 1 ⟨n, hn⟩) xs := by
  unfold outOf
  rw [View.read_writes_eq_canon _ _ _ (outCover_last V c n hn h0 h1 xs)]
  unfold lastAt runLast
  dsimp only
  sl_unfold_words
  rw [View.canon_unit_zero origin2]
  simp only [View.readAt_eq_ld, Memref.IsWhole.read_unread, View.ld_unit_zero (S := S1024x1024) origin2]
  refine (View.readCov_unit_zero (S := S1024x1024) _ origin2 _ _).trans ?_
  exact congrArg _ (Memref.IsWhole.read_unread _ xs)

end Cert.KernelIdeal.Mm

end
-- ==== Proof.MatmulPayload.lean ====
/-
  The arithmetic of the blocked matrix product's body read at an index, on exact values: the cleared accumulator is 0
  everywhere; the accumulating step, at (a, b), is the accumulator found there plus the sum over the 1024 shared
  positions k of x (a, k) · w (b, k) — both operands carry the shared axis second, the rounding of x to the narrower
  format is the identity on exact values, and the product starts from the zero array.
-/
import proofs.«135212_j5093831213493_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Mm

open Cert.KernelIdeal Cert.KernelIdeal.Gen Idealize.ShloMosaic Idealize.ShloMosaic.TcCoe Idealize.SL.Sem
open Idealize.ShloMosaic.ValueIdx

/-- The contraction of the body's product: axis 1 of both operands. -/
abbrev DD : DotDims S1024x1024 S1024x1024 S1024x1024 := dot_S1024x1024_S1024x1024_S1024x1024_1_1_0_0_n_n

theorem cleared_apply (y : S1024x1024.Idx) : k1_pay1 (F := Ideal) y = 0 := by
  unfold k1_pay1
  rw [shapeCast_self]
  exact Ideal.ofBits_zero_f32

theorem lhs_row (j : S1024x1024.Idx) (q : DD.contr.Idx) : (DD.lhsIdx j q 0).val = (j 0).val := by
  unfold DotDims.lhsIdx
  rw [dif_neg (show ¬(0 : Fin S1024x1024.rank) ∈ DD.lhsBatch by decide), dif_pos (show (0 : Fin S1024x1024.rank) ∈ DD.lhsNonContracting by decide)]
  rfl
theorem lhs_col (j : S1024x1024.Idx) (q : DD.contr.Idx) : (DD.lhsIdx j q 1).val = (q ⟨0, by decide⟩).val :=
  DD.lhsIdx_val_of_single rfl j q
theorem rhs_row (j : S1024x1024.Idx) (q : DD.contr.Idx) : (DD.rhsIdx j q 0).val = (j 1).val := by
  unfold DotDims.rhsIdx
  rw [dif_neg (show ¬(0 : Fin S1024x1024.rank) ∈ DD.rhsBatch by decide), dif_pos (show (0 : Fin S1024x1024.rank) ∈ DD.rhsNonContracting by decide)]
  rfl
theorem rhs_col (j : S1024x1024.Idx) (q : DD.contr.Idx) : (DD.rhsIdx j q 1).val = (q ⟨0, by decide⟩).val :=
  DD.rhsIdx_val_of_single rfl j q

/-- The product into the zero array, at (a, b): the sum over k of x (a, k) · w (b, k). -/
theorem product_apply (x : FVec Ideal S1024x1024 .bf16) (w : FVec Ideal S1024x1024 .bf16) (a b : Fin 1024) :
    FloatOps.matmul (F := Ideal) DD none x w (constant S1024x1024 .f32 0x00000000#32) (ix2 a b)
      = ∑ k : Fin 1024, x (ix2 a k) * w (ix2 b k) := by
  rw [Ideal.matmul_constant_zero_apply, ← Equiv.sum_comp (contrEquiv1 DD 1024 rfl rfl).symm]
  refine Finset.sum_congr rfl fun k _ => ?_
  have hk := contrEquiv1_symm_val DD 1024 rfl rfl k
  have el : DD.lhsIdx (ix2 a b) ((contrEquiv1 DD 1024 rfl rfl).symm k) = ix2 a k := funext fun ax => Fin.ext (by
    match ax with
    | ⟨0, _⟩ => exact lhs_row _ _
    | ⟨1, _⟩ => exact (lhs_col _ _).trans hk)
  have er : DD.rhsIdx (ix2 a b) ((contrEquiv1 DD 1024 rfl rfl).symm k) = ix2 b k := funext fun ax => Fin.ext (by
    match ax with
    | ⟨0, _⟩ => exact rhs_row _ _
    | ⟨1, _⟩ => exact (rhs_col _ _).trans hk)
  rw [el, er]

/-- The accumulating step at (a, b). -/
theorem step_apply (x : Vec Ideal S1024x1024 .f32) (w : Vec Ideal S1024x1024 .bf16) (acc : Vec Ideal S1024x1024 .f32) (a b : Fin 1024) :
    k1_pay2 (F := Ideal) x w acc (ix2 a b) = acc (ix2 a b) + ∑ k : Fin 1024, x (ix2 a k) * w (ix2 b k) := by
  unfold k1_pay2
  simp only [shapeCast_self]
  exact congrArg (acc (ix2 a b) + ·) (product_apply x w a b)

end Cert.KernelIdeal.Mm

end
-- ==== Proof.MatmulValue.lean ====
/-
  The blocked matrix product read as values. With X the left matrix and Wt the right one (both 4096 × 4096, the shared
  axis second), point t = 16 i + 4 j + k works on rows 1024 i … of X, rows 1024 j … of Wt and columns 1024 k … of both.
  By induction on t the accumulator after point t holds, at (a, b), the running sum
      ((0 + B 0) + B 1 + …) + B k,   B k' = Σ_{kk < 1024} X (1024 i + a, 1024 k' + kk) · Wt (1024 j + b, 1024 k' + kk),
  because at k = 0 the point starts from the cleared accumulator and otherwise from what point t − 1 (same i, j; k − 1)
  left. At k = 3 this is copied out, so block (i, j) of the result is the running sum of all four blocks, and the 16
  blocks written back cover the result.
-/
import proofs.«135212_j5093831213493_2_alg».proof.Proof.MatmulPieces
import proofs.«135212_j5093831213493_2_alg».proof.Proof.MatmulPayload

set_option maxRecDepth 16384

noncomputable section

namespace Cert.KernelIdeal.Mm

open Cert.KernelIdeal Cert.KernelIdeal.Gen Idealize.ShloMosaic Idealize.ShloMosaic.TcCoe Idealize.SL.Sem
open Idealize.ShloMosaic.Pipeline (Dat)
open Idealize.ShloMosaic.ValueIdx

/-! ## The running sums -/

/-- Column 1024 k + kk of the shared axis (k read mod 4). -/
def colOf (k : ℕ) (kk : Fin 1024) : Fin 4096 :=
  ⟨k % 4 * 1024 + kk.val, by have h1 := kk.isLt; have h2 := Nat.mod_lt k (show 0 < 4 by decide); omega⟩

/-- The k-th block of the inner product of row r of X with row o of Wt. -/
def blockSum (X Wt : S4096x4096.Idx → EReal) (r o : Fin 4096) (k : ℕ) : EReal :=
  ∑ kk : Fin 1024, X (ix2 r (colOf k kk)) * Wt (ix2 o (colOf k kk))

/-- Blocks 0 … k added up in order, from 0. -/
def runningSum (X Wt : S4096x4096.Idx → EReal) (r o : Fin 4096) : ℕ → EReal
  | 0 => 0 + blockSum X Wt r o 0
  | k + 1 => runningSum X Wt r o k + blockSum X Wt r o (k + 1)

/-- The result: all four blocks. -/
def product (X Wt : S4096x4096.Idx → EReal) : S4096x4096.Idx → EReal := fun y =>
  runningSum X Wt ⟨(y 0).val, (y 0).isLt⟩ ⟨(y 1).val, (y 1).isLt⟩ 3

/-! ## The blocks a point reads -/

variable (V : (c : Dev nD) → (b : Ref sig .tc) → Buf (Elt Ideal) ((c : Thread nD τ).loc b))

/-- The printed index maps over the grid: point t is on block row t / 16 of the left matrix, block row (t / 4) mod 4 of
    the right one, block column t mod 4 of both, and block (t / 16, (t / 4) mod 4) of the result. -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 16 ∧ win1_2.index t (1 : Fin 2) = t.val / 4 % 4 :=
  (by decide +kernel : ∀ t : Fin grid1.N, _)

theorem left_apply (c : Dev nD) (t : Fin cfg1.N) (y : S1024x1024.Idx) (k : S4096x4096.Idx)
    (hk0 : (k 0).val = t.val / 16 * 1024 + (y 0).val) (hk1 : (k 1).val = t.val % 4 * 1024 + (y 1).val) :
    (blockAt V c 0 t : Vec Ideal S1024x1024 .f32) y = (V c main_v2 : S4096x4096.Idx → EReal) k := by
  obtain ⟨e0, e1, -⟩ := idx_facts1 t
  show V c main_v2 (((cfg1.win 0).blk t).view.emb y) = V c main_v2 k
  congr 1
  funext a
  apply Fin.ext
  match a with
  | ⟨0, _⟩ => show win1_0.index t (0 : Fin 2) * 1024 + 1 * (y 0).val = (k 0).val; rw [e0, hk0]; omega
  | ⟨1, _⟩ => show win1_0.index t (1 : Fin 2) * 1024 + 1 * (y 1).val = (k 1).val; rw [e1, hk1]; omega

theorem right_apply (c : Dev nD) (t : Fin cfg1.N) (y : S1024x1024.Idx) (k : S4096x4096.Idx)
    (hk0 : (k 0).val = t.val / 4 % 4 * 1024 + (y 0).val) (hk1 : (k 1).val = t.val % 4 * 1024 + (y 1).val) :
    (blockAt V c 1 t : Vec Ideal S1024x1024 .bf16) y = (V c main_v1 : S4096x4096.Idx → EReal) k := by
  obtain ⟨-, -, e0, e1, -⟩ := idx_facts1 t
  show V c main_v1 (((cfg1.win 1).blk t).view.emb y) = V c main_v1 k
  congr 1
  funext a
  apply Fin.ext
  match a with
  | ⟨0, _⟩ => show win1_1.index t (0 : Fin 2) * 1024 + 1 * (y 0).val = (k 0).val; rw [e0, hk0]; omega
  | ⟨1, _⟩ => show win1_1.index t (1 : Fin 2) * 1024 + 1 * (y 1).val = (k 1).val; rw [e1, hk1]; omega

/-- The products a point adds at (a, b) are block t mod 4 of the inner product of the two rows it is on. -/
theorem point_sum (c : Dev nD) (n : ℕ) (hn : n < cfg1.N) (a b : Fin 1024) (r o : Fin 4096)
    (hr : r.val = n / 16 * 1024 + a.val) (ho : o.val = n / 4 % 4 * 1024 + b.val) :
    (∑ kk : Fin 1024, @id (S1024x1024.Idx → EReal) (blockAt V c 0 ⟨n, hn⟩) (ix2 a kk) * @id (S1024x1024.Idx → EReal) (blockAt V c 1 ⟨n, hn⟩) (ix2 b kk))
      = blockSum (V c main_v2) (V c main_v1) r o (n % 4) := by
  unfold blockSum
  refine Finset.sum_congr rfl fun kk _ => ?_
  have hc : (colOf (n % 4) kk).val = n % 4 * 1024 + kk.val := by
    show n % 4 % 4 * 1024 + kk.val = n % 4 * 1024 + kk.val; omega
  exact congrArg₂ (· * ·) (left_apply V c ⟨n, hn⟩ (ix2 a kk) (ix2 r (colOf (n % 4) kk)) hr hc)
    (right_apply V c ⟨n, hn⟩ (ix2 b kk) (ix2 o (colOf (n % 4) kk)) ho hc)

/-! ## The accumulator after each point -/

theorem acc_eq (c : Dev nD) : ∀ (n : ℕ) (hn : n < cfg1.N) (a b : Fin 1024) (r o : Fin 4096),
    r.val = n / 16 * 1024 + a.val → o.val = n / 4 % 4 * 1024 + b.val →
    (stateAt V c n hn).2 (ix2 a b) = runningSum (V c main_v2) (V c main_v1) r o (n % 4) := by
  intro n
  induction n with
  | zero =>
    intro hn a b r o hr ho
    have ps := point_sum V c 0 hn a b r o hr ho
    rw [stateAt_first V c 0 hn (Nat.zero_mod _) (by decide)]
    dsimp only
    rw [acc_first, step_apply, cleared_apply]
    exact congrArg (0 + ·) ps
  | succ n ih =>
    intro hn a b r o hr ho
    have hN : n + 1 < 64 := lt_of_lt_of_eq hn N_1
    have ps := point_sum V c (n + 1) hn a b r o hr ho
    by_cases h0 : (n + 1) % 4 = 0
    · rw [h0] at ps
      rw [stateAt_first V c (n + 1) hn h0 (by omega)]
      dsimp only
      rw [acc_first, step_apply, cleared_apply, h0]
      exact congrArg (0 + ·) ps
    · have ih' := ih (Nat.lt_of_succ_lt hn) a b r o (by omega) (by omega)
      have hk : (n + 1) % 4 = n % 4 + 1 := by omega
      rw [hk] at ps
      by_cases h1 : (n + 1) % 4 = 3
      · rw [stateAt_last V c (n + 1) hn h0 h1]
        dsimp only
        rw [acc_last, step_apply, hk]
        exact congrArg₂ (· + ·) ih' ps
      · rw [stateAt_mid V c (n + 1) hn h0 h1]
        dsimp only
        rw [acc_mid, step_apply, hk]
        exact congrArg₂ (· + ·) ih' ps

/-- At k = 3 the result's buffer receives the accumulator: all four blocks. -/
theorem out_eq (c : Dev nD) (n : ℕ) (hn : n < cfg1.N) (h3 : n % 4 = 3) (y : S1024x1024.Idx) (i : S4096x4096.Idx)
    (hr : (i 0).val = n / 16 * 1024 + (y 0).val) (ho : (i 1).val = n / 4 % 4 * 1024 + (y 1).val) :
    (stateAt V c n hn).1 y = product (V c main_v2) (V c main_v1) i := by
  have h0 : ¬n % 4 = 0 := by omega
  have e1 : (stateAt V c n hn).1 = (stateAt V c n hn).2 := by
    rw [stateAt_last V c n hn h0 h3]; dsimp only; rw [out_last, acc_last]
  obtain ⟨a, b, rfl⟩ : ∃ (a b : Fin 1024), y = ix2 a b := ⟨y 0, y 1, eq_ix2 y⟩
  rw [e1, acc_eq V c n hn a b ⟨(i 0).val, (i 0).isLt⟩ ⟨(i 1).val, (i 1).isLt⟩ hr ho, h3]
  rfl

/-! ## From blocks to the array -/

theorem flushed_eq (c : Dev nD) (t : Fin cfg1.N) (hf : (cfg1.win 2).flush t = true) :
    (dat1 (F := Ideal) V c).flushed 2 t = ((cfg1.win 2).blk t).view.read (Elt Ideal) (product (V c main_v2) (V c main_v1)) := by
  have h3 : t.val % 4 = 3 := (flush1_2 t).mp hf
  show (cfg1.win 2).cut (grid1.coords t) ((dat1 (F := Ideal) V c).after 2 t) = _
  rw [after_out]
  obtain ⟨-, -, -, -, e0, e1⟩ := idx_facts1 t
  funext j
  show (stateAt V c t.val t.isLt).1 j = product (V c main_v2) (V c main_v1) (((cfg1.win 2).blk t).view.emb j)
  refine out_eq V c t.val t.isLt h3 j _ ?_ ?_
  · show win1_2.index t (0 : Fin 2) * 1024 + 1 * (j 0).val = t.val / 16 * 1024 + (j 0).val; rw [e0]; omega
  · show win1_2.index t (1 : Fin 2) * 1024 + 1 * (j 1).val = t.val / 4 % 4 * 1024 + (j 1).val; rw [e1]; omega

theorem mem_blk (t : Fin cfg1.N) (i : S4096x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v3).slice (win1_2.rect t)).set ↔ _
  rw [View.set_slice_whole, Rect.mem_set_unit]
  exact Iff.rfl

/-- Entry (r, o) of the result is in the block written back at the point with i = r / 1024, j = o / 1024, k = 3. -/
theorem cover (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  obtain ⟨t, ht⟩ : ∃ t : Fin cfg1.N, t.val = (i 0).val / 1024 * 16 + (i 1).val / 1024 * 4 + 3 :=
    ⟨⟨(i 0).val / 1024 * 16 + (i 1).val / 1024 * 4 + 3, by rw [show cfg1.N = 64 from N_1]; omega⟩, rfl⟩
  obtain ⟨-, -, -, -, e0, e1⟩ := idx_facts1 t
  refine ⟨t, (flush1_2 t).mpr (by omega), ?_⟩
  rw [mem_blk]
  intro a
  match a with
  | ⟨0, _⟩ => show win1_2.index t (0 : Fin 2) * 1024 ≤ (i 0).val ∧ (i 0).val < win1_2.index t (0 : Fin 2) * 1024 + 1024; rw [e0, ht]; omega
  | ⟨1, _⟩ => show win1_2.index t (1 : Fin 2) * 1024 ≤ (i 1).val ∧ (i 1).val < win1_2.index t (1 : Fin 2) * 1024 + 1024; rw [e1, ht]; omega

/-- The result array after the region: the blocked product of the two matrices as the region finds them. -/
theorem final1 (V : (c : Dev nD) → (b : Ref sig .tc) → Buf (Elt Ideal) ((c : Thread nD τ).loc b)) (c : Dev nD) :
    (dat1 (F := Ideal) V c).arrAt 2 cfg1.N = product (V c main_v2) (V c main_v1) :=
  (dat1 (F := Ideal) V c).arrAt_eq_of_cover 2 (product (V c main_v2) (V c main_v1)) (fun t hf => flushed_eq V c t hf) cover

end Cert.KernelIdeal.Mm

end
-- ==== Proof.LibReshapes.lean ====
/- Three reshapes read at an index, over literal shapes and for any element type: the flattening of the two
   trailing axes [4096, 128, 32] → [4096, 4096], the merge of the two leading axes [2, 2048, 4096] → [4096, 4096] and its
   inverse [4096, 4096] → [2, 2048, 4096]. Each holds for ANY proof of the shape-cast relation. -/
import Idealize.ShloMosaic.Lib.Pipeline.Value
import Idealize.ShloMosaic.Lib.ValueIdx

noncomputable section

namespace Cert.LibReshapes

open Idealize.ShloMosaic Idealize.ShloMosaic.ValueIdx

variable {α : Type}

/-- Column c of row o of the [4096, 4096] matrix sits at (o, c / 32, c mod 32) of the [4096, 128, 32] array. -/
abbrev unflat32 (i : (⟨2, ![4096, 4096]⟩ : Shape).Idx) : (⟨3, ![4096, 128, 32]⟩ : Shape).Idx :=
  ix3 (⟨(i 0).val, (i 0).isLt⟩ : Fin 4096)
    (⟨(i 1).val / 32, by have h : (i 1).val < 4096 := (i 1).isLt; show (i 1).val / 32 < 128; omega⟩ : Fin 128)
    (⟨(i 1).val % 32, Nat.mod_lt _ (by decide)⟩ : Fin 32)

/-- Row r of the [4096, 4096] matrix is row (r / 2048, r mod 2048) of the [2, 2048, 4096] array. -/
abbrev split2048 (i : (⟨2, ![4096, 4096]⟩ : Shape).Idx) : (⟨3, ![2, 2048, 4096]⟩ : Shape).Idx :=
  ix3 (⟨(i 0).val / 2048, by have h : (i 0).val < 4096 := (i 0).isLt; show (i 0).val / 2048 < 2; omega⟩ : Fin 2)
    (⟨(i 0).val % 2048, Nat.mod_lt _ (by decide)⟩ : Fin 2048)
    (⟨(i 1).val, (i 1).isLt⟩ : Fin 4096)

/-- Row (s, t) of the [2, 2048, 4096] array is row s · 2048 + t of the [4096, 4096] matrix. -/
abbrev merge2048 (i : (⟨3, ![2, 2048, 4096]⟩ : Shape).Idx) : (⟨2, ![4096, 4096]⟩ : Shape).Idx :=
  ix2 (⟨(i 0).val * 2048 + (i 1).val, by
      have h0 : (i 0).val < 2 := (i 0).isLt; have h1 : (i 1).val < 2048 := (i 1).isLt
      show (i 0).val * 2048 + (i 1).val < 4096; omega⟩ : Fin 4096)
    (⟨(i 2).val, (i 2).isLt⟩ : Fin 4096)

/-- A [4096, 128, 32] array reshaped to [4096, 4096] reads, at (o, c), the operand at (o, c / 32, c mod 32): the two
    row-major positions are both o · 4096 + c. -/
theorem shapeCast_flat32_apply (y : (⟨3, ![4096, 128, 32]⟩ : Shape).Idx → α)
    (h : (⟨3, ![4096, 128, 32]⟩ : Shape).ShapeCasts ⟨2, ![4096, 4096]⟩) (i : (⟨2, ![4096, 4096]⟩ : Shape).Idx) :
    shapeCast ⟨2, ![4096, 4096]⟩ y h i = y (unflat32 i) :=
  shapeCast_apply y h i (unflat32 i) (by
    have h0 : (i 0).val < 4096 := (i 0).isLt
    have h1 : (i 1).val < 4096 := (i 1).isLt
    rw [Shape.rowMajor_val_three, Shape.rowMajor_val_two]
    show ((i 0).val * 128 + (i 1).val / 32) * 32 + (i 1).val % 32 = (i 0).val * 4096 + (i 1).val
    omega)

/-- A [2, 2048, 4096] array reshaped to [4096, 4096] reads, at (r, k), the operand at (r / 2048, r mod 2048, k): the
    two row-major positions are both r · 4096 + k. -/
theorem shapeCast_merge2048_apply (y : (⟨3, ![2, 2048, 4096]⟩ : Shape).Idx → α)
    (h : (⟨3, ![2, 2048, 4096]⟩ : Shape).ShapeCasts ⟨2, ![4096, 4096]⟩) (i : (⟨2, ![4096, 4096]⟩ : Shape).Idx) :
    shapeCast ⟨2, ![4096, 4096]⟩ y h i = y (split2048 i) :=
  shapeCast_apply y h i (split2048 i) (by
    have h0 : (i 0).val < 4096 := (i 0).isLt
    have h1 : (i 1).val < 4096 := (i 1).isLt
    rw [Shape.rowMajor_val_three, Shape.rowMajor_val_two]
    show ((i 0).val / 2048 * 2048 + (i 0).val % 2048) * 4096 + (i 1).val = (i 0).val * 4096 + (i 1).val
    omega)

/-- A [4096, 4096] matrix reshaped to [2, 2048, 4096] reads, at (s, t, k), the operand at (s · 2048 + t, k): the two
    row-major positions are both (s · 2048 + t) · 4096 + k. -/
theorem shapeCast_split2048_apply (y : (⟨2, ![4096, 4096]⟩ : Shape).Idx → α)
    (h : (⟨2, ![4096, 4096]⟩ : Shape).ShapeCasts ⟨3, ![2, 2048, 4096]⟩) (i : (⟨3, ![2, 2048, 4096]⟩ : Shape).Idx) :
    shapeCast ⟨3, ![2, 2048, 4096]⟩ y h i = y (merge2048 i) :=
  shapeCast_apply y h i (merge2048 i) (by
    rw [Shape.rowMajor_val_three, Shape.rowMajor_val_two]
    rfl)

end Cert.LibReshapes

end
-- ==== Proof.BlockSum.lean ====
/- A sum over 4096 terms taken as four consecutive blocks of 1024, accumulated from zero in order. -/
import Mathlib.Data.EReal.Basic
import Mathlib.Algebra.BigOperators.Fin
import Mathlib.Data.Fintype.BigOperators
import Mathlib.Logic.Equiv.Fin.Basic

noncomputable section

namespace Cert.BlockSum

/-- The sum of block k mod 4: the 1024 terms at positions (k mod 4) · 1024 … (k mod 4) · 1024 + 1023. -/
def S (f : Fin 4096 → EReal) (k : ℕ) : EReal :=
  ∑ kk : Fin 1024, f ⟨k % 4 * 1024 + kk.val, by
    have h1 : kk.val < 1024 := kk.isLt
    have h2 : k % 4 < 4 := Nat.mod_lt k (by decide)
    omega⟩

/-- Block a of the sum is the terms whose position has quotient a by 1024. -/
theorem S_eq (f : Fin 4096 → EReal) (a : Fin 4) :
    S f a.val = ∑ kk : Fin 1024, f (finProdFinEquiv (m := 4) (n := 1024) (a, kk)) := by
  unfold S
  refine Finset.sum_congr rfl fun kk _ => congrArg f (Fin.ext ?_)
  show a.val % 4 * 1024 + kk.val = kk.val + 1024 * a.val
  have ha : a.val < 4 := a.isLt
  omega

/-- The four block sums, added in order onto zero, are the whole sum: a position below 4096 is 1024 · a + kk for
    exactly one block a below 4 and one kk below 1024. -/
theorem four_blocks (f : Fin 4096 → EReal) : (((0 + S f 0) + S f 1) + S f 2) + S f 3 = ∑ k : Fin 4096, f k := by
  have h : ∑ k : Fin 4096, f k = ∑ a : Fin 4, ∑ kk : Fin 1024, f (finProdFinEquiv (m := 4) (n := 1024) (a, kk)) := by
    rw [← Fintype.sum_prod_type']
    exact (Equiv.sum_comp (finProdFinEquiv (m := 4) (n := 1024)) f).symm
  rw [h, Fin.sum_univ_four, zero_add]
  exact congrArg₂ (· + ·) (congrArg₂ (· + ·) (congrArg₂ (· + ·) (S_eq f 0) (S_eq f 1)) (S_eq f 2)) (S_eq f 3)

end Cert.BlockSum

end
-- ==== Proof.KernelValue.lean ====
/-
  The kernel's result as one function of its three arguments, on exact values. Following the buffers through the four
  items: the first region leaves the dequantised weight; the two reshapes flatten it to a 4096 × 4096 matrix and merge
  the two leading axes of x; the second region leaves the blocked product of the two; the last reshape splits the rows
  back. At (s, t, o) this is the running sum of the four blocks of 1024 products of row 2048 s + t of the merged x with
  row o of the flattened weight, which — addition of extended reals being associative and commutative — is the one sum
  over all 4096 products: the linear layer G.
-/
import proofs.«135212_j5093831213493_2_alg».proof.Proof.KernelRun
import proofs.«135212_j5093831213493_2_alg».proof.Proof.DequantValue
import proofs.«135212_j5093831213493_2_alg».proof.Proof.MatmulValue
import proofs.«135212_j5093831213493_2_alg».proof.Proof.LibReshapes
import proofs.«135212_j5093831213493_2_alg».proof.Proof.BlockSum
import Idealize.ShloMosaic.Lib.StableHlo.Run

set_option maxRecDepth 16384

noncomputable section

namespace Cert.KernelIdeal.Both

open Cert.KernelIdeal Cert.KernelIdeal.Gen Idealize.ShloMosaic Idealize.ShloMosaic.TcCoe Idealize.SL.Sem
open Idealize.ShloMosaic.StableHlo
open Idealize.ShloMosaic.ValueIdx

variable (m : (ℓ : Loc nD τ sig) → Buf (Elt Ideal) ℓ)

/-! ## The host stretches' results -/

/-- The last reshape: the result is the second region's output with its rows split. -/
theorem W4_result (c : Dev nD) :
    (W4 m c (Proc.devRef .tc main_v4) : S2x2048x4096.Idx → EReal)
      = shapeCast S2x2048x4096 (W3 m c (Proc.devRef .tc main_v3) : S4096x4096.Idx → EReal) shapeCasts_S4096x4096_S2x2048x4096 := by
  show StableHlo.after hostOps2 (W3 m c) (Proc.devRef .tc main_v4) = _
  after_results; rfl

/-- The second region's left matrix: x with its two leading axes merged. -/
theorem W2_left (c : Dev nD) :
    (W2 m c (Proc.devRef .tc main_v2) : S4096x4096.Idx → EReal)
      = shapeCast S4096x4096 (W1 m c (Proc.devRef .tc main_arg0) : S2x2048x4096.Idx → EReal) shapeCasts_S2x2048x4096_S4096x4096 := by
  show StableHlo.after hostOps1 (W1 m c) (Proc.devRef .tc main_v2) = _
  after_results; rfl

/-- Its right matrix: the first region's output flattened. -/
theorem W2_right (c : Dev nD) :
    (W2 m c (Proc.devRef .tc main_v1) : S4096x4096.Idx → EReal)
      = shapeCast S4096x4096 (W1 m c (Proc.devRef .tc main_v0) : S4096x128x32.Idx → EReal) shapeCasts_S4096x128x32_S4096x4096 := by
  show StableHlo.after hostOps1 (W1 m c) (Proc.devRef .tc main_v1) = _
  after_results; rfl

/-! ## The regions' results -/

theorem W1_weight (c : Dev nD) :
    (W1 m c (Proc.devRef .tc main_v0) : S4096x128x32.Idx → EReal)
      = Cert.Spec.weight (m ((c : Thread nD τ).loc main_arg1)) (m ((c : Thread nD τ).loc main_arg2)) :=
  (W1_arr m c 2).trans (Deq.final0 (B0 m) c)

theorem W1_x (c : Dev nD) : W1 m c (Proc.devRef .tc main_arg0) = m ((c : Thread nD τ).loc main_arg0) :=
  W1_of_ne m c main_arg0 (by decide)

theorem W3_product (c : Dev nD) :
    (W3 m c (Proc.devRef .tc main_v3) : S4096x4096.Idx → EReal)
      = Mm.product (W2 m c (Proc.devRef .tc main_v2)) (W2 m c (Proc.devRef .tc main_v1)) :=
  (W3_arr m c 2).trans (Mm.final1 (B2 m) c)

/-! ## The result is the linear layer -/

/-- The running sum of the four blocks is the whole inner product. -/
theorem runningSum_three (X Wt : S4096x4096.Idx → EReal) (r o : Fin 4096) :
    Mm.runningSum X Wt r o 3 = ∑ k : Fin 4096, X (ix2 r k) * Wt (ix2 o k) :=
  Cert.BlockSum.four_blocks fun k => X (ix2 r k) * Wt (ix2 o k)

theorem result_eq (c : Dev nD) :
    (W4 m c (Proc.devRef .tc main_v4) : S2x2048x4096.Idx → EReal)
      = Cert.Spec.G (m ((c : Thread nD τ).loc main_arg0))
          (Cert.Spec.flat (Cert.Spec.weight (m ((c : Thread nD τ).loc main_arg1)) (m ((c : Thread nD τ).loc main_arg2)))) := by
  rw [W4_result, W3_product, W2_left, W2_right, W1_weight, W1_x]
  funext i
  rw [Cert.LibReshapes.shapeCast_split2048_apply]
  unfold Mm.product Cert.Spec.G
  rw [runningSum_three]
  refine Finset.sum_congr (M := EReal) rfl fun k _ => ?_
  rw [Cert.LibReshapes.shapeCast_merge2048_apply, Cert.LibReshapes.shapeCast_flat32_apply]
  have h0 : (i 0).val < 2 := (i 0).isLt
  have h1 : (i 1).val < 2048 := (i 1).isLt
  refine congrArg₂ (fun (u v : EReal) => u * v) (congrArg _ ?_) ?_
  · funext a
    apply Fin.ext
    match a with
    | ⟨0, _⟩ => show ((i 0).val * 2048 + (i 1).val) / 2048 = (i 0).val; omega
    | ⟨1, _⟩ => show ((i 0).val * 2048 + (i 1).val) % 2048 = (i 1).val; omega
    | ⟨2, _⟩ => rfl
  · rfl

end Cert.KernelIdeal.Both

end
-- ==== Proof.RefValue.lean ====
/- The reference program's result, read index by index: the dot product of a row of x with a row of the
   flattened dequantised weight. -/
import proofs.«135212_j5093831213493_2_alg».proof.Proof.Gen.ReferenceIdeal.Read
import proofs.«135212_j5093831213493_2_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-- The flattened weight the reference multiplies by: at (o, c) the scale at (o, c / 32) times (the code at
    (o, c / 32, c mod 32) as a float, minus 128). The reshape reads the row-major position o · 4096 + c, whose
    coordinates in [4096, 128, 32] are (o, c / 32, c mod 32); the two broadcasts of the scales read (o, c / 32). -/
theorem flat_eq (x1 : (⟨S4096x128, .f32⟩ : BufTy).Contents (Elt Ideal)) (x2 : (⟨S4096x128x32, .i32⟩ : BufTy).Contents (Elt Ideal))
    (j : S4096x4096.Idx) :
    val_main_v6 (F := Ideal) x1 x2 j = Cert.Spec.flat (Cert.Spec.weight x1 x2) j := by
  have h0 : (j 0).val < 4096 := (j 0).isLt
  have h1 : (j 1).val < 4096 := (j 1).isLt
  rw [val_main_v6_apply, val_main_v5_apply, val_main_v4_apply, val_main_v3_apply, val_main_v2_apply, val_main_v1_apply,
    val_main_cst_apply, val_main_v0_apply]
  have e6 : idx_main_v6 j = ix3 (⟨(j 0).val, (j 0).isLt⟩ : Fin 4096) (⟨(j 1).val / 32, by show (j 1).val / 32 < 128; omega⟩ : Fin 128)
      (⟨(j 1).val % 32, Nat.mod_lt _ (by decide)⟩ : Fin 32) :=
    funext fun a => Fin.ext (by
      match a with
      | ⟨0, _⟩ => show ((j 0).val * 4096 + (j 1).val) / 4096 = (j 0).val; omega
      | ⟨1, _⟩ => show ((j 0).val * 4096 + (j 1).val) / 32 % 128 = (j 1).val / 32; omega
      | ⟨2, _⟩ => show ((j 0).val * 4096 + (j 1).val) % 32 = (j 1).val % 32; omega)
  have e3 : ∀ I : S4096x128x32.Idx, idx_main_v3 (idx_main_v4 I)
      = ix2 (⟨(I 0).val, (I 0).isLt⟩ : Fin 4096) (⟨(I 1).val, (I 1).isLt⟩ : Fin 128) :=
    fun I => funext fun a => Fin.ext (by match a with | ⟨0, _⟩ => rfl | ⟨1, _⟩ => rfl)
  rw [e6, e3]
  unfold Cert.Spec.flat Cert.Spec.weight
  rfl

/-- The reference's result is the linear layer of x with the flattened dequantised weight. -/
theorem ref_eq (x0 : (⟨S2x2048x4096, .f32⟩ : BufTy).Contents (Elt Ideal)) (x1 : (⟨S4096x128, .f32⟩ : BufTy).Contents (Elt Ideal))
    (x2 : (⟨S4096x128x32, .i32⟩ : BufTy).Contents (Elt Ideal)) :
    Cert.ReferenceIdeal.Read.val_main_v7 (F := Ideal) x0 x1 x2 = Cert.Spec.G x0 (Cert.Spec.flat (Cert.Spec.weight x1 x2)) := by
  funext i
  rw [val_main_v7_apply]
  unfold Cert.Spec.G
  refine Finset.sum_congr rfl fun k _ => ?_
  have el : lidx_main_v7 i k = ix3 (⟨(i 0).val, (i 0).isLt⟩ : Fin 2) (⟨(i 1).val, (i 1).isLt⟩ : Fin 2048) k :=
    funext fun a => Fin.ext (by match a with | ⟨0, _⟩ => rfl | ⟨1, _⟩ => rfl | ⟨2, _⟩ => rfl)
  have er : ridx_main_v7 i k = ix2 (⟨(i 2).val, (i 2).isLt⟩ : Fin 4096) k :=
    funext fun a => Fin.ext (by match a with | ⟨0, _⟩ => rfl | ⟨1, _⟩ => rfl)
  rw [el, er, flat_eq]

end Cert.ReferenceIdeal.RefValue

end
-- ==== Proof.lean ====
/-
  A quantised linear layer: y = x · Wᵀ with W (o, 32 b + j) = scales (o, b) · (float (codes (o, b, j)) − 128), for
  x of 2 × 2048 rows of length 4096 and 4096 output features.

  The kernel computes it in two grid-scheduled regions — first the dequantised weight, 64 rows at a time; then, after
  two reshapes, the product in 4 × 4 × 4 blocks of 1024, adding one block of the shared axis at a time into an
  accumulator that is cleared at the first block and copied out at the last — and a last reshape. The reference
  dequantises the whole weight and takes one inner product of 4096 terms per entry.

  On exact values (extended reals, every operation the textbook one, changes of float format the identity) both are
  the function `Cert.Spec.G`: the only difference is that the kernel groups each entry's 4096 products into four
  consecutive blocks added in order from zero, and addition of extended reals is associative and commutative, so the
  grouping does not matter (no finiteness of the inputs is used).

  The three frame claims: both kernel programs by the run of their four items (each region's body obligation at every
  grid point, the accumulator's contents carried between points in the region's invariant), the reference by its run
  as a list of host operations. The idealisation rewrote nothing, so there is nothing to preserve.
-/
import proofs.«135212_j5093831213493_2_alg».proof.Defs
import proofs.«135212_j5093831213493_2_alg».proof.Proof.Gen.Kernel
import proofs.«135212_j5093831213493_2_alg».proof.Proof.Gen.KernelIdeal
import proofs.«135212_j5093831213493_2_alg».proof.Proof.Gen.ReferenceIdeal
import proofs.«135212_j5093831213493_2_alg».proof.Proof.Gen.Pre_finite_inputs
import proofs.«135212_j5093831213493_2_alg».proof.Proof.Gen.ReferenceIdeal.Read
import proofs.«135212_j5093831213493_2_alg».proof.Proof.WordKernelRun
import proofs.«135212_j5093831213493_2_alg».proof.Proof.KernelValue
import proofs.«135212_j5093831213493_2_alg».proof.Proof.RefValue

noncomputable section

namespace Cert.Proof

open Idealize.ShloMosaic Idealize.ShloMosaic.TcCoe Idealize.SL.Sem

/-- The word-level kernel runs to the end and leaves its arguments unchanged. -/
theorem frame_word : Cert.frame_Kernel := fun m ρ _ =>
  (θ_run Cert.Kernel.defs _ _).mono (fun _ h c => (h c).2) (Cert.Kernel.Both.run (F := Bits) m ρ)

/-- So does the kernel on exact values, -/
theorem frame_exact : Cert.frame_KernelIdeal := fun m ρ _ =>
  (θ_run Cert.KernelIdeal.defs _ _).mono (fun _ h c => (h c).2) (Cert.KernelIdeal.Both.run (F := Ideal) m ρ)

/-- and the reference. -/
theorem frame_ref : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the linear layer `G` of those arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (Cert.Spec.flat (Cert.Spec.weight (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))), ?_, ?_⟩
  · exact (θ_run Cert.KernelIdeal.defs _ _).mono
      (fun _ h c => ⟨(h c).1.trans (Cert.KernelIdeal.Both.result_eq m c), (h c).2⟩)
      (Cert.KernelIdeal.Both.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v7_eq, Cert.ReferenceIdeal.RefValue.ref_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_word, frame_exact, frame_ref, preserves, algebraic⟩

end Cert.Proof

end
